-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18_0)) (v1 : (c : Dev Cert.KernelIdeal.nD) → Buf (Elt Ideal) ((c.tc : Thread Cert.KernelIdeal.nD Cert.KernelIdeal.τ).loc Cert.KernelIdeal.main_v18_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_v18_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_v61) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8192x4096 : S_.BroadcastsInDim S8192x4096 (![] : Fin 0 → Fin S8192x4096.rank)
  reducesTo_S8192x4096_S_d0_1 : S8192x4096.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S1024 .f32) (main_arg15 : FVec F S1024 .f32) (main_arg16 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024 .f32 := Host.absf main_arg15
  let main_cst_28 : FVec F S_ .f32 := constant S_ .f32 0x7F800000#32
  let main_v75 : FVec F S1024 .f32 := broadcastInDim S1024 ![] bcast_S_S1024 main_cst_28
  let main_v76 : IVec S1024 1 := cmpf .olt main_v74 main_v75
  let main_c_29 : IVec S_ 1 := constantI S_ 1 1#1
  let main_v77 : IVec S_ 1 := (fun x v => Host.reduce IntOp.andi x v reducesTo_S1024_S_d0 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024x1024 .f32 := Host.absf main_arg12
  let main_cst_22 : FVec F S_ .f32 := constant S_ .f32 0x7F800000#32
  let main_v60 : FVec F S1024x1024 .f32 := broadcastInDim S1024x1024 ![] bcast_S_S1024x1024 main_cst_22
  let main_v61 : IVec S1024x1024 1 := cmpf .olt main_v59 main_v60
  let main_c_23 : IVec S_ 1 := constantI S_ 1 1#1
  let main_v62 : IVec S_ 1 := (fun x v => Host.reduce IntOp.andi x v reducesTo_S1024x1024_S_d0_1 h_S_) main_v61 main_c_23
  let main_v63 : IVec S_ 1 := andi main_v58 main_v62
  let main_v64 : FVec F S1024 .f32 := Host.absf main_arg13
  let main_cst_24 : FVec F S_ .f32 := constant S_ .f32 0x7F800000#32
  let main_v65 : FVec F S1024 .f32 := broadcastInDim S1024 ![] bcast_S_S1024 main_cst_24
  let main_v66 : IVec S1024 1 := cmpf .olt main_v64 main_v65
  let main_c_25 : IVec S_ 1 := constantI S_ 1 1#1
  let main_v67 : IVec S_ 1 := (fun x v => Host.reduce IntOp.andi x v reducesTo_S1024_S_d0 h_S_) main_v66 main_c_25
  fn_part4 (F := F) main_arg14 main_arg15 main_arg16 main_v63 main_v67

def fn_part2 {F : FTy → Type} [FloatOps F] (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_arg12 main_arg13 main_arg14 main_arg15 main_arg16 main_v48 main_v49 main_v50

def fn_part1 {F : FTy → Type} [FloatOps F] (main_arg4 : FVec F S8192x4096 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) (main_v13 : IVec S_ 1) (main_v16 : IVec S8192x4096 1) : IVec S_ 1 :=
  let main_c_5 : IVec S_ 1 := constantI S_ 1 1#1
  let main_v17 : IVec S_ 1 := (fun x v => Host.reduce IntOp.andi x v reducesTo_S8192x4096_S_d0_1 h_S_) main_v16 main_c_5
  let main_v18 : IVec S_ 1 := andi main_v13 main_v17
  let main_v19 : FVec F S8192x4096 .f32 := Host.absf main_arg4
  let main_cst_6 : FVec F S_ .f32 := constant S_ .f32 0x7F800000#32
  let main_v20 : FVec F S8192x4096 .f32 := broadcastInDim S8192x4096 ![] bcast_S_S8192x4096 main_cst_6
  let main_v21 : IVec S8192x4096 1 := cmpf .olt main_v19 main_v20
  let main_c_7 : IVec S_ 1 := constantI S_ 1 1#1
  let main_v22 : IVec S_ 1 := (fun x v => Host.reduce IntOp.andi x v reducesTo_S8192x4096_S_d0_1 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S8192x1024 .f32) (main_arg1 : FVec F S8192x1024 .f32) (main_arg2 : FVec F S8192x1024 .f32) (main_arg3 : FVec F S8192x4096 .f32) (main_arg4 : FVec F S8192x4096 .f32) (main_arg5 : FVec F S1024x1024 .f32) (main_arg6 : FVec F S1024x1024 .f32) (main_arg7 : FVec F S1024x1024 .f32) (main_arg8 : FVec F S1024x1024 .f32) (main_arg9 : FVec F S1024x1024 .f32) (main_arg10 : FVec F S1024x1024 .f32) (main_arg11 : FVec F S1024x1024 .f32) (main_arg12 : FVec F S1024x1024 .f32) (main_arg13 : FVec F S1024 .f32) (main_arg14 : FVec F S1024 .f32) (main_arg15 : FVec F S1024 .f32) (main_arg16 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S8192x4096 .f32 := Host.absf main_arg3
  let main_cst_4 : FVec F S_ .f32 := constant S_ .f32 0x7F800000#32
  let main_v15 : FVec F S8192x4096 .f32 := broadcastInDim S8192x4096 ![] bcast_S_S8192x4096 main_cst_4
  let main_v16 : IVec S8192x4096 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S1x1024x1024 : Shape := ⟨3, ![1, 1024, 1024]⟩
abbrev S4x1024x1024 : Shape := ⟨3, ![4, 1024, 1024]⟩
abbrev S1x1024 : Shape := ⟨2, ![1, 1024]⟩
abbrev S4x1024 : Shape := ⟨2, ![4, 1024]⟩
abbrev S4x1x1024 : Shape := ⟨3, ![4, 1, 1024]⟩
abbrev S256x1024 : Shape := ⟨2, ![256, 1024]⟩
abbrev S256x4096 : Shape := ⟨2, ![256, 4096]⟩
abbrev S1x256x1024 : Shape := ⟨3, ![1, 256, 1024]⟩
abbrev S4x256x1024 : Shape := ⟨3, ![4, 256, 1024]⟩

abbrev nBuf : Space → Nat
  | .hbm => 37
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S8192x4096, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1x1024x1024, .f32⟩
  | .hbm, ⟨18, _⟩ => ⟨S1x1024x1024, .f32⟩
  | .hbm, ⟨19, _⟩ => ⟨S1x1024x1024, .f32⟩
  | .hbm, ⟨20, _⟩ => ⟨S1x1024x1024, .f32⟩
  | .hbm, ⟨21, _⟩ => ⟨S4x1024x1024, .f32⟩
  | .hbm, ⟨22, _⟩ => ⟨S4x1024x1024, .bf16⟩
  | .hbm, ⟨23, _⟩ => ⟨S1x1024x1024, .f32⟩
  | .hbm, ⟨24, _⟩ => ⟨S1x1024x1024, .f32⟩
  | .hbm, ⟨25, _⟩ => ⟨S1x1024x1024, .f32⟩
  | .hbm, ⟨26, _⟩ => ⟨S1x1024x1024, .f32⟩
  | .hbm, ⟨27, _⟩ => ⟨S4x1024x1024, .f32⟩
  | .hbm, ⟨28, _⟩ => ⟨S4x1024x1024, .bf16⟩
  | .hbm, ⟨29, _⟩ => ⟨S1x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S4x1024, .f32⟩
  | .hbm, ⟨34, _⟩ => ⟨S4x1x1024, .f32⟩
  | .hbm, ⟨35, _⟩ => ⟨S8192x1024, .f32⟩
  | .hbm, ⟨36, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x4096, .f32⟩
  | .local _ .vmem, ⟨7, _⟩ => ⟨S256x4096, .f32⟩
  | .local _ .vmem, ⟨8, _⟩ => ⟨S256x4096, .f32⟩
  | .local _ .vmem, ⟨9, _⟩ => ⟨S256x4096, .f32⟩
  | .local _ .vmem, ⟨10, _⟩ => ⟨S4x1024x1024, .bf16⟩
  | .local _ .vmem, ⟨11, _⟩ => ⟨S4x1024x1024, .bf16⟩
  | .local _ .vmem, ⟨12, _⟩ => ⟨S4x1x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18_0 : Ref sig .tc := ⟨.hbm, 35, rfl⟩
abbrev main_v18_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S1024x1024_S1x1024x1024_1_2 : S1024x1024.BroadcastsInDim S1x1024x1024 (![1, 2] : Fin 2 → Fin S1x1024x1024.rank)
  concatenates_S1x1024x1024_S1x1024x1024_S1x1024x1024_S1x1024x1024_S4x1024x1024_d0 : Shape.Concatenates [S1x1024x1024, S1x1024x1024, S1x1024x1024, S1x1024x1024] S4x1024x1024 0
  bitsLt_bf16_f32 : FTy.bits .bf16 < FTy.bits .f32
  bcast_S1024_S1x1024_1 : S1024.BroadcastsInDim S1x1024 (![1] : Fin 1 → Fin S1x1024.rank)
  concatenates_S1x1024_S1x1024_S1x1024_S1x1024_S4x1024_d0 : Shape.Concatenates [S1x1024, S1x1024, S1x1024, S1x1024] S4x1024 0
  shapeCasts_S4x1024_S4x1x1024 : S4x1024.ShapeCasts S4x1x1024
  inb_S256x1024_S256x1024_0_0 : ∀ a, (![0, 0] : Fin 2 → Nat) a + S256x1024.size a ≤ S256x1024.size a
  h_S256x1024 : 0 < S256x1024.numel
  inb_S256x4096_S256x4096_0_0 : ∀ a, (![0, 0] : Fin 2 → Nat) a + S256x4096.size a ≤ S256x4096.size a
  h_S256x4096 : 0 < S256x4096.numel
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  shapeCasts_S256x1024_S1x256x1024 : S256x1024.ShapeCasts S1x256x1024
  concatenates_S1x256x1024_S1x256x1024_S1x256x1024_S1x256x1024_S4x256x1024_d0 : Shape.Concatenates [S1x256x1024, S1x256x1024, S1x256x1024, S1x256x1024] S4x256x1024 0
  inb_S4x1024x1024_S4x1024x1024_0_0_0 : ∀ a, (![0, 0, 0] : Fin 3 → Nat) a + S4x1024x1024.size a ≤ S4x1024x1024.size a
  h_S4x1024x1024 : 0 < S4x1024x1024.numel
  shapeCasts_S4x1024x1024_S4x1024x1024 : S4x1024x1024.ShapeCasts S4x1024x1024
  inb_S4x1x1024_S4x1x1024_0_0_0 : ∀ a, (![0, 0, 0] : Fin 3 → Nat) a + S4x1x1024.size a ≤ S4x1x1024.size a
  h_S4x1x1024 : 0 < S4x1x1024.numel
  shapeCasts_S4x1x1024_S4x1x1024 : S4x1x1024.ShapeCasts S4x1x1024
  broadcasts_S4x1x1024_S4x256x1024 : S4x1x1024.Broadcasts S4x256x1024
  slices_S4x256x1024_o0_0_0_S1x256x1024 : S4x256x1024.Slices ![0, 0, 0] S1x256x1024
  shapeCasts_S1x256x1024_S256x1024 : S1x256x1024.ShapeCasts S256x1024
  slices_S4x256x1024_o1_0_0_S1x256x1024 : S4x256x1024.Slices ![1, 0, 0] S1x256x1024
  slices_S4x256x1024_o2_0_0_S1x256x1024 : S4x256x1024.Slices ![2, 0, 0] S1x256x1024
  slices_S4x256x1024_o3_0_0_S1x256x1024 : S4x256x1024.Slices ![3, 0, 0] S1x256x1024
  dot_S4x256x1024_S4x1024x1024_S4x256x1024_2_2_1_1_0_0_wf : DotDims.WF S4x256x1024 S4x1024x1024 S4x256x1024 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S8192x4096.size a
  hwx0_3 : ∀ i : grid0.Coords, EltTy.bits .f32 = 32 ∨ (Rect.block (s := S8192x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S8192x4096.size a
  hwx0_4 : ∀ i : grid0.Coords, EltTy.bits .f32 = 32 ∨ (Rect.block (s := S8192x4096) S256x4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x1024x1024.size a ≤ S4x1024x1024.size a
  hwx0_5 : ∀ i : grid0.Coords, EltTy.bits .bf16 = 32 ∨ (Rect.block (s := S4x1024x1024) S4x1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4x1024x1024.size a ≤ S4x1024x1024.size a
  hwx0_6 : ∀ i : grid0.Coords, EltTy.bits .bf16 = 32 ∨ (Rect.block (s := S4x1024x1024) S4x1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S4x1x1024.size a ≤ S4x1x1024.size a
  hwx0_7 : ∀ i : grid0.Coords, EltTy.bits .f32 = 32 ∨ (Rect.block (s := S4x1x1024) S4x1x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S8192x1024.size a
  hwx0_8 : ∀ i : grid0.Coords, EltTy.bits .f32 = 32 ∨ (Rect.block (s := S8192x1024) S256x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1024.size a ≤ S8192x1024.size a
  hwx0_9 : ∀ i : grid0.Coords, EltTy.bits .f32 = 32 ∨ (Rect.block (s := S8192x1024) S256x1024.size (cc0_transform_9 i) (hinb0_9 i)).WholeWords (EltTy.packing .f32)

variable [Facts₀]

def dot_S4x256x1024_S4x1024x1024_S4x256x1024_2_2_1_1_0_0 : DotDims S4x256x1024 S4x1024x1024 S4x256x1024 where
  lhsContracting := [2]
  rhsContracting := [2]
  lhsNonContracting := [1]
  rhsNonContracting := [1]
  lhsBatch := [0]
  rhsBatch := [0]
  wf := dot_S4x256x1024_S4x1024x1024_S4x256x1024_2_2_1_1_0_0_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S4x1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S4x1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S4x1x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_0) S256x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v18_1) S256x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8192x4096 : Shape := ⟨2, ![8192, 4096]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 87
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x4096, .f32⟩
  | .hbm, ⟨4, _⟩ => ⟨S8192x4096, .f32⟩
  | .hbm, ⟨5, _⟩ => ⟨S1024x1024, .f32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S1x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst : Ref sig .tc := ⟨.hbm, 35, rfl⟩
abbrev main_v18 : Ref sig .tc := ⟨.hbm, 36, rfl⟩
abbrev main_v19 : Ref sig .tc := ⟨.hbm, 37, rfl⟩
abbrev main_cst_0 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_1 : Ref sig .tc := ⟨.hbm, 51, rfl⟩
abbrev main_v32 : Ref sig .tc := ⟨.hbm, 52, rfl⟩
abbrev main_v33 : Ref sig .tc := ⟨.hbm, 53, rfl⟩
abbrev main_cst_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_3 : Ref sig .tc := ⟨.hbm, 67, rfl⟩
abbrev main_v46 : Ref sig .tc := ⟨.hbm, 68, rfl⟩
abbrev main_v47 : Ref sig .tc := ⟨.hbm, 69, rfl⟩
abbrev main_cst_4 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]

class Facts₀ : Prop where
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  dot_S8192x1024_S1024x1024_S8192x1024_1_1_0_0_n_n_wf : DotDims.WF S8192x1024 S1024x1024 S8192x1024 [1] [1] [0] [0] [] []

variable [Facts₀]

def dot_S8192x1024_S1024x1024_S8192x1024_1_1_0_0_n_n : DotDims S8192x1024 S1024x1024 S8192x1024 where
  lhsContracting := [1]
  rhsContracting := [1]
  lhsNonContracting := [0]
  rhsNonContracting := [0]
  lhsBatch := []
  rhsBatch := []
  wf := dot_S8192x1024_S1024x1024_S8192x1024_1_1_0_0_n_n_wf

class Facts : Prop extends Facts₀ where

variable [Facts]
-- ==== Proof.KernelFrame.lean ====
/-
  The frame of the LSTM-cell program, at any float instance: the program runs to the end without a fault and leaves its
  seventeen argument arrays as it found them, and each of the two result arrays ends at what the pipeline's write-backs
  make of the per-point outputs. The program is eighteen host operations (the four weight matrices of each path stacked
  along a new leading gate axis and cast, the four biases stacked and reshaped) followed by one pipelined region over 32
  row blocks of 256 rows. At every grid point the body loads its eight input blocks whole, computes, and stores the two
  output blocks whole; it keeps nothing between points. So what an output's staging buffer holds after the body is one
  piece — the whole block — whose value is the body's arithmetic of the input blocks.
-/
import proofs.«147330_j35476429865299_2_alg».proof.Proof.Gen.Kernel.Launch
import proofs.«147330_j35476429865299_2_alg».proof.Proof.Gen.Kernel.Skeleton
import proofs.«147330_j35476429865299_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the eighteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region, entered with the buffers at `entry`. -/
theorem to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem entry_arg16 (c : Dev nD) : entry m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, whether or not the pipeline fetched it
    there: where it did not, the block index has not moved since the fetch (the weights and the biases are fetched
    once, their index constant). -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run to the pipeline's post — a staged argument's array is never written back, an unstaged one is no
    window's — the frame claim's post. -/
theorem frame_of (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((pd 0 c).arrAt_in 0 rfl _).trans ((hA c 0).trans (entry_arg0 m c))),
      ((h c).1 1).trans (((pd 0 c).arrAt_in 1 rfl _).trans ((hA c 1).trans (entry_arg1 m c))),
      ((h c).1 2).trans (((pd 0 c).arrAt_in 2 rfl _).trans ((hA c 2).trans (entry_arg2 m c))),
      ((h c).1 3).trans (((pd 0 c).arrAt_in 3 rfl _).trans ((hA c 3).trans (entry_arg3 m c))),
      ((h c).1 4).trans (((pd 0 c).arrAt_in 4 rfl _).trans ((hA c 4).trans (entry_arg4 m c))),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c)⟩) h

/-! ## What the body leaves in the two output buffers -/

/-- The whole block of a row-block operand, of a mask, of a stacked weight, of the stacked bias. -/
abbrev rA : Rect S256x1024 := Rect.unit (s := S256x1024) ![0, 0] S256x1024.size inb_S256x1024_S256x1024_0_0
abbrev rM : Rect S256x4096 := Rect.unit (s := S256x4096) ![0, 0] S256x4096.size inb_S256x4096_S256x4096_0_0
abbrev rW : Rect S4x1024x1024 := Rect.unit (s := S4x1024x1024) ![0, 0, 0] S4x1024x1024.size inb_S4x1024x1024_S4x1024x1024_0_0_0
abbrev rB : Rect S4x1x1024 := Rect.unit (s := S4x1x1024) ![0, 0, 0] S4x1x1024.size inb_S4x1x1024_S4x1x1024_0_0_0

/-- The new hidden state's block: the one store, of the output gate times tanh of the new cell state. -/
def hxOut (x0 x1 x2 : Vec F S256x1024 .f32) (x3 x4 : Vec F S256x4096 .f32) (x5 x6 : Vec F S4x1024x1024 .bf16) (x7 : Vec F S4x1x1024 .f32) : Vec F S256x1024 .f32 :=
  View.canon [⟨rA, k0_pay3 (View.ld x2 rA) (k0_pay5 (View.ld x0 rA) (View.ld x3 rM)) (k0_pay6 (View.ld x0 rA) (View.ld x1 rA) (View.ld x4 rM)) (k0_pay7 (View.ld x5 rW)) (k0_pay8 (View.ld x6 rW)) (View.ld x7 rB)⟩]

/-- The new cell state's block: the one store, of forget gate times old cell plus input gate times candidate. -/
def cxOut (x0 x1 x2 : Vec F S256x1024 .f32) (x3 x4 : Vec F S256x4096 .f32) (x5 x6 : Vec F S4x1024x1024 .bf16) (x7 : Vec F S4x1x1024 .f32) : Vec F S256x1024 .f32 :=
  View.canon [⟨rA, k0_pay2 (View.ld x2 rA) (k0_pay5 (View.ld x0 rA) (View.ld x3 rM)) (k0_pay6 (View.ld x0 rA) (View.ld x1 rA) (View.ld x4 rM)) (k0_pay7 (View.ld x5 rW)) (k0_pay8 (View.ld x6 rW)) (View.ld x7 rB)⟩]

/-- One whole-block store covers the buffer. -/
theorem whole_cover (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- On whole staging buffers, the inputs' at read contents and the outputs' at anything, the body runs to the end
    holding the inputs' as they were and each output's at its one stored piece. -/
theorem body_triple (c : Dev nD) (E : Set ℕ) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S256x4096 .f32) (h3 : a3.IsWhole) (a4 : Memref sig .tc .vmem S256x4096 .f32) (h4 : a4.IsWhole) (a5 : Memref sig .tc .vmem S4x1024x1024 .bf16) (h5 : a5.IsWhole) (a6 : Memref sig .tc .vmem S4x1024x1024 .bf16) (h6 : a6.IsWhole) (a7 : Memref sig .tc .vmem S4x1x1024 .f32) (h7 : a7.IsWhole) (a8 : Memref sig .tc .vmem S256x1024 .f32) (h8 : a8.IsWhole) (a9 : Memref sig .tc .vmem S256x1024 .f32) (h9 : a9.IsWhole)
    (x0 x1 x2 : Vec F S256x1024 .f32) (x3 x4 : Vec F S256x4096 .f32) (x5 x6 : Vec F S4x1024x1024 .bf16) (x7 : Vec F S4x1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (hxOut x0 x1 x2 x3 x4 x5 x6 x7) ∗ owns (c : Thread nD τ) a9 fullShare (cxOut x0 x1 x2 x3 x4 x5 x6 x7)) -∗ K ⟨⟩))
      ⊢ wp frame (wpE (defs₀ (F := F)) Variants.none c none) E (cc0__lstm_kernel i a0 h0 a1 h1 a2 h2 a3 h3 a4 h4 a5 h5 a6 h6 a7 h7 a8 h8 a9 h9) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (whole_cover _)
  iexists _; isplitr
  swap; · iexact H9
  ipureintro
  exact View.read_writes_eq_canon _ _ _ (whole_cover _)

/-! ## The pipeline's proof data -/

/-- On core `c`: the arrays as the region finds them; after the body at point `t` each input's buffer at its block
    and each output's at its stored piece over the input blocks; the invariant the scoped rest and the generator
    register, untouched; nothing owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => hxOut (blockAt m c 0 t) (blockAt m c 1 t) (blockAt m c 2 t) (blockAt m c 3 t) (blockAt m c 4 t) (blockAt m c 5 t) (blockAt m c 6 t) (blockAt m c 7 t)
    | ⟨9, _⟩ => cxOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
theorem after_7 (c : Dev nD) (t : Fin cfg0.N) : (pdata m 0 c).after 7 t = blockAt m c 7 t := by dsimp only [pdata]
theorem after_8 (c : Dev nD) (t : Fin cfg0.N) : (pdata m 0 c).after 8 t = hxOut (blockAt m c 0 t) (blockAt m c 1 t) (blockAt m c 2 t) (blockAt m c 3 t) (blockAt m c 4 t) (blockAt m c 5 t) (blockAt m c 6 t) (blockAt m c 7 t) := by dsimp only [pdata]
theorem after_9 (c : Dev nD) (t : Fin cfg0.N) : (pdata m 0 c).after 9 t = cxOut (blockAt m c 0 t) (blockAt m c 1 t) (blockAt m c 2 t) (blockAt m c 3 t) (blockAt m c 4 t) (blockAt m c 5 t) (blockAt m c 6 t) (blockAt m c 7 t) := by dsimp only [pdata]

theorem held_0 (c : Dev nD) (t : Fin cfg0.N) (d) : (pdata m 0 c).before 0 t d = blockAt m c 0 t :=
  held_0_of m (pdata m 0 c) (pdata_A m c 0) (after_0 m c) t d
theorem held_1 (c : Dev nD) (t : Fin cfg0.N) (d) : (pdata m 0 c).before 1 t d = blockAt m c 1 t :=
  held_1_of m (pdata m 0 c) (pdata_A m c 1) (after_1 m c) t d
theorem held_2 (c : Dev nD) (t : Fin cfg0.N) (d) : (pdata m 0 c).before 2 t d = blockAt m c 2 t :=
  held_2_of m (pdata m 0 c) (pdata_A m c 2) (after_2 m c) t d
theorem held_3 (c : Dev nD) (t : Fin cfg0.N) (d) : (pdata m 0 c).before 3 t d = blockAt m c 3 t :=
  held_3_of m (pdata m 0 c) (pdata_A m c 3) (after_3 m c) t d
theorem held_4 (c : Dev nD) (t : Fin cfg0.N) (d) : (pdata m 0 c).before 4 t d = blockAt m c 4 t :=
  held_4_of m (pdata m 0 c) (pdata_A m c 4) (after_4 m c) t d
theorem held_5 (c : Dev nD) (t : Fin cfg0.N) (d) : (pdata m 0 c).before 5 t d = blockAt m c 5 t :=
  held_5_of m (pdata m 0 c) (pdata_A m c 5) (after_5 m c) t d
theorem held_6 (c : Dev nD) (t : Fin cfg0.N) (d) : (pdata m 0 c).before 6 t d = blockAt m c 6 t :=
  held_6_of m (pdata m 0 c) (pdata_A m c 6) (after_6 m c) t d
theorem held_7 (c : Dev nD) (t : Fin cfg0.N) (d) : (pdata m 0 c).before 7 t d = blockAt m c 7 t :=
  held_7_of m (pdata m 0 c) (pdata_A m c 7) (after_7 m c) t d

/-! ## The body obligation -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t))

set_option maxHeartbeats 4000000 in
/-- At any point the inputs' buffers hold their blocks, so the body's triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline at what the write-backs make of the proof data and every other unscoped buffer as the region found it. -/
theorem run_to_post : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := to_region m Variants.none) (hA := pdata_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (pdata m) (pdata_A m) (run_to_post m ρ)

end Cert.Kernel.Frm

end
-- ==== Proof.KernelIdealFrame.lean ====
/-
  The frame of the LSTM-cell program, at any float instance: the program runs to the end without a fault and leaves its
  seventeen argument arrays as it found them, and each of the two result arrays ends at what the pipeline's write-backs
  make of the per-point outputs. The program is eighteen host operations (the four weight matrices of each path stacked
  along a new leading gate axis and cast, the four biases stacked and reshaped) followed by one pipelined region over 32
  row blocks of 256 rows. At every grid point the body loads its eight input blocks whole, computes, and stores the two
  output blocks whole; it keeps nothing between points. So what an output's staging buffer holds after the body is one
  piece — the whole block — whose value is the body's arithmetic of the input blocks.
-/
import proofs.«147330_j35476429865299_2_alg».proof.Proof.Gen.KernelIdeal.Launch
import proofs.«147330_j35476429865299_2_alg».proof.Proof.Gen.KernelIdeal.Skeleton
import proofs.«147330_j35476429865299_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- Core `c`'s buffers when the region is entered: the launch memory after the eighteen host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- The program is its host operations, then the region, entered with the buffers at `entry`. -/
theorem to_region (𝒱₀ : Variants) : Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- No host operation writes argument 0: the region finds it as launched. -/
theorem entry_arg0 (c : Dev nD) : entry m c main_arg0 = m ((c : Thread nD τ).loc main_arg0) :=
  StableHlo.after_of_forall_not_mem (b := Proc.devRef .tc main_arg0) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 1: the region finds it as launched. -/
theorem entry_arg1 (c : Dev nD) : entry m c main_arg1 = m ((c : Thread nD τ).loc main_arg1) :=
  StableHlo.after_of_forall_not_mem (b := Proc.devRef .tc main_arg1) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 2: the region finds it as launched. -/
theorem entry_arg2 (c : Dev nD) : entry m c main_arg2 = m ((c : Thread nD τ).loc main_arg2) :=
  StableHlo.after_of_forall_not_mem (b := Proc.devRef .tc main_arg2) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 3: the region finds it as launched. -/
theorem entry_arg3 (c : Dev nD) : entry m c main_arg3 = m ((c : Thread nD τ).loc main_arg3) :=
  StableHlo.after_of_forall_not_mem (b := Proc.devRef .tc main_arg3) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 4: the region finds it as launched. -/
theorem entry_arg4 (c : Dev nD) : entry m c main_arg4 = m ((c : Thread nD τ).loc main_arg4) :=
  StableHlo.after_of_forall_not_mem (b := Proc.devRef .tc main_arg4) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 5: the region finds it as launched. -/
theorem entry_arg5 (c : Dev nD) : entry m c main_arg5 = m ((c : Thread nD τ).loc main_arg5) :=
  StableHlo.after_of_forall_not_mem (b := Proc.devRef .tc main_arg5) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 6: the region finds it as launched. -/
theorem entry_arg6 (c : Dev nD) : entry m c main_arg6 = m ((c : Thread nD τ).loc main_arg6) :=
  StableHlo.after_of_forall_not_mem (b := Proc.devRef .tc main_arg6) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 7: the region finds it as launched. -/
theorem entry_arg7 (c : Dev nD) : entry m c main_arg7 = m ((c : Thread nD τ).loc main_arg7) :=
  StableHlo.after_of_forall_not_mem (b := Proc.devRef .tc main_arg7) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 8: the region finds it as launched. -/
theorem entry_arg8 (c : Dev nD) : entry m c main_arg8 = m ((c : Thread nD τ).loc main_arg8) :=
  StableHlo.after_of_forall_not_mem (b := Proc.devRef .tc main_arg8) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 9: the region finds it as launched. -/
theorem entry_arg9 (c : Dev nD) : entry m c main_arg9 = m ((c : Thread nD τ).loc main_arg9) :=
  StableHlo.after_of_forall_not_mem (b := Proc.devRef .tc main_arg9) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 10: the region finds it as launched. -/
theorem entry_arg10 (c : Dev nD) : entry m c main_arg10 = m ((c : Thread nD τ).loc main_arg10) :=
  StableHlo.after_of_forall_not_mem (b := Proc.devRef .tc main_arg10) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 11: the region finds it as launched. -/
theorem entry_arg11 (c : Dev nD) : entry m c main_arg11 = m ((c : Thread nD τ).loc main_arg11) :=
  StableHlo.after_of_forall_not_mem (b := Proc.devRef .tc main_arg11) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 12: the region finds it as launched. -/
theorem entry_arg12 (c : Dev nD) : entry m c main_arg12 = m ((c : Thread nD τ).loc main_arg12) :=
  StableHlo.after_of_forall_not_mem (b := Proc.devRef .tc main_arg12) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 13: the region finds it as launched. -/
theorem entry_arg13 (c : Dev nD) : entry m c main_arg13 = m ((c : Thread nD τ).loc main_arg13) :=
  StableHlo.after_of_forall_not_mem (b := Proc.devRef .tc main_arg13) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 14: the region finds it as launched. -/
theorem entry_arg14 (c : Dev nD) : entry m c main_arg14 = m ((c : Thread nD τ).loc main_arg14) :=
  StableHlo.after_of_forall_not_mem (b := Proc.devRef .tc main_arg14) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 15: the region finds it as launched. -/
theorem entry_arg15 (c : Dev nD) : entry m c main_arg15 = m ((c : Thread nD τ).loc main_arg15) :=
  StableHlo.after_of_forall_not_mem (b := Proc.devRef .tc main_arg15) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))
/-- No host operation writes argument 16: the region finds it as launched. -/
theorem entry_arg16 (c : Dev nD) : entry m c main_arg16 = m ((c : Thread nD τ).loc main_arg16) :=
  StableHlo.after_of_forall_not_mem (b := Proc.devRef .tc main_arg16) _ _ (List.forall_iff_forall_mem.mp (by
    simp only [hostOps0, List.Forall, StableHlo.unary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (entry m c (Pipeline.arrRef spec0 w))

/-! An input window's current staging buffer holds its block at every point, whether or not the pipeline fetched it
    there: where it did not, the block index has not moved since the fetch (the weights and the biases are fetched
    once, their index constant). -/
theorem held_0_of {c : Dev nD} (dat : Dat τ (Elt F) Unit ℕ (UR sig nD τ) ℕ cfg0 c) (hA : dat.A 0 = entry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem held_1_of {c : Dev nD} (dat : Dat τ (Elt F) Unit ℕ (UR sig nD τ) ℕ cfg0 c) (hA : dat.A 1 = entry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem held_2_of {c : Dev nD} (dat : Dat τ (Elt F) Unit ℕ (UR sig nD τ) ℕ cfg0 c) (hA : dat.A 2 = entry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem held_3_of {c : Dev nD} (dat : Dat τ (Elt F) Unit ℕ (UR sig nD τ) ℕ cfg0 c) (hA : dat.A 3 = entry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem held_4_of {c : Dev nD} (dat : Dat τ (Elt F) Unit ℕ (UR sig nD τ) ℕ cfg0 c) (hA : dat.A 4 = entry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)
theorem held_5_of {c : Dev nD} (dat : Dat τ (Elt F) Unit ℕ (UR sig nD τ) ℕ cfg0 c) (hA : dat.A 5 = entry m c (Pipeline.arrRef spec0 5))
    (hafter : ∀ t, dat.after 5 t = blockAt m c 5 t) (t : Fin cfg0.N) (d) : dat.before 5 t d = blockAt m c 5 t :=
  (dat.before_in_eq_fetched 5 rfl (fun _ => rfl) (fun _ _ _ => rfl) (fun t => by rw [hafter]; unfold Dat.blockOf blockAt; rw [hA]; try rfl) t d).trans
    (by unfold Dat.fetched Dat.blockOf blockAt; rw [hA]; try rfl)
theorem held_6_of {c : Dev nD} (dat : Dat τ (Elt F) Unit ℕ (UR sig nD τ) ℕ cfg0 c) (hA : dat.A 6 = entry m c (Pipeline.arrRef spec0 6))
    (hafter : ∀ t, dat.after 6 t = blockAt m c 6 t) (t : Fin cfg0.N) (d) : dat.before 6 t d = blockAt m c 6 t :=
  (dat.before_in_eq_fetched 6 rfl (fun _ => rfl) (fun _ _ _ => rfl) (fun t => by rw [hafter]; unfold Dat.blockOf blockAt; rw [hA]; try rfl) t d).trans
    (by unfold Dat.fetched Dat.blockOf blockAt; rw [hA]; try rfl)
theorem held_7_of {c : Dev nD} (dat : Dat τ (Elt F) Unit ℕ (UR sig nD τ) ℕ cfg0 c) (hA : dat.A 7 = entry m c (Pipeline.arrRef spec0 7))
    (hafter : ∀ t, dat.after 7 t = blockAt m c 7 t) (t : Fin cfg0.N) (d) : dat.before 7 t d = blockAt m c 7 t :=
  (dat.before_in_eq_fetched 7 rfl (fun _ => rfl) (fun _ _ _ => rfl) (fun t => by rw [hafter]; unfold Dat.blockOf blockAt; rw [hA]; try rfl) t d).trans
    (by unfold Dat.fetched Dat.blockOf blockAt; rw [hA]; try rfl)

/-! ## The arguments end unchanged -/

/-- From a run to the pipeline's post — a staged argument's array is never written back, an unstaged one is no
    window's — the frame claim's post. -/
theorem frame_of (pd : (p : Fin 1) → (c : Dev nD) → Dat τ (Elt F) Unit ℕ (UR sig nD τ) ℕ (cfgs p) c)
    (hA : ∀ c w, (pd 0 c).A w = entry m c (Pipeline.arrRef spec0 w))
    (h : θ_run defs (onTc (τ := τ) (main (F := F))) (s₀ m ρ) (Pipeline.FramePost cfgs pd 0 (entry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 0).trans (((pd 0 c).arrAt_in 0 rfl _).trans ((hA c 0).trans (entry_arg0 m c))),
      ((h c).1 1).trans (((pd 0 c).arrAt_in 1 rfl _).trans ((hA c 1).trans (entry_arg1 m c))),
      ((h c).1 2).trans (((pd 0 c).arrAt_in 2 rfl _).trans ((hA c 2).trans (entry_arg2 m c))),
      ((h c).1 3).trans (((pd 0 c).arrAt_in 3 rfl _).trans ((hA c 3).trans (entry_arg3 m c))),
      ((h c).1 4).trans (((pd 0 c).arrAt_in 4 rfl _).trans ((hA c 4).trans (entry_arg4 m c))),
      ((h c).2 main_arg5 (Pipeline.mem_restRefs_of main_arg5 (by decide) (by decide))).trans (entry_arg5 m c),
      ((h c).2 main_arg6 (Pipeline.mem_restRefs_of main_arg6 (by decide) (by decide))).trans (entry_arg6 m c),
      ((h c).2 main_arg7 (Pipeline.mem_restRefs_of main_arg7 (by decide) (by decide))).trans (entry_arg7 m c),
      ((h c).2 main_arg8 (Pipeline.mem_restRefs_of main_arg8 (by decide) (by decide))).trans (entry_arg8 m c),
      ((h c).2 main_arg9 (Pipeline.mem_restRefs_of main_arg9 (by decide) (by decide))).trans (entry_arg9 m c),
      ((h c).2 main_arg10 (Pipeline.mem_restRefs_of main_arg10 (by decide) (by decide))).trans (entry_arg10 m c),
      ((h c).2 main_arg11 (Pipeline.mem_restRefs_of main_arg11 (by decide) (by decide))).trans (entry_arg11 m c),
      ((h c).2 main_arg12 (Pipeline.mem_restRefs_of main_arg12 (by decide) (by decide))).trans (entry_arg12 m c),
      ((h c).2 main_arg13 (Pipeline.mem_restRefs_of main_arg13 (by decide) (by decide))).trans (entry_arg13 m c),
      ((h c).2 main_arg14 (Pipeline.mem_restRefs_of main_arg14 (by decide) (by decide))).trans (entry_arg14 m c),
      ((h c).2 main_arg15 (Pipeline.mem_restRefs_of main_arg15 (by decide) (by decide))).trans (entry_arg15 m c),
      ((h c).2 main_arg16 (Pipeline.mem_restRefs_of main_arg16 (by decide) (by decide))).trans (entry_arg16 m c)⟩) h

/-! ## What the body leaves in the two output buffers -/

/-- The whole block of a row-block operand, of a mask, of a stacked weight, of the stacked bias. -/
abbrev rA : Rect S256x1024 := Rect.unit (s := S256x1024) ![0, 0] S256x1024.size inb_S256x1024_S256x1024_0_0
abbrev rM : Rect S256x4096 := Rect.unit (s := S256x4096) ![0, 0] S256x4096.size inb_S256x4096_S256x4096_0_0
abbrev rW : Rect S4x1024x1024 := Rect.unit (s := S4x1024x1024) ![0, 0, 0] S4x1024x1024.size inb_S4x1024x1024_S4x1024x1024_0_0_0
abbrev rB : Rect S4x1x1024 := Rect.unit (s := S4x1x1024) ![0, 0, 0] S4x1x1024.size inb_S4x1x1024_S4x1x1024_0_0_0

/-- The new hidden state's block: the one store, of the output gate times tanh of the new cell state. -/
def hxOut (x0 x1 x2 : Vec F S256x1024 .f32) (x3 x4 : Vec F S256x4096 .f32) (x5 x6 : Vec F S4x1024x1024 .bf16) (x7 : Vec F S4x1x1024 .f32) : Vec F S256x1024 .f32 :=
  View.canon [⟨rA, k0_pay3 (View.ld x2 rA) (k0_pay5 (View.ld x0 rA) (View.ld x3 rM)) (k0_pay6 (View.ld x0 rA) (View.ld x1 rA) (View.ld x4 rM)) (k0_pay7 (View.ld x5 rW)) (k0_pay8 (View.ld x6 rW)) (View.ld x7 rB)⟩]

/-- The new cell state's block: the one store, of forget gate times old cell plus input gate times candidate. -/
def cxOut (x0 x1 x2 : Vec F S256x1024 .f32) (x3 x4 : Vec F S256x4096 .f32) (x5 x6 : Vec F S4x1024x1024 .bf16) (x7 : Vec F S4x1x1024 .f32) : Vec F S256x1024 .f32 :=
  View.canon [⟨rA, k0_pay2 (View.ld x2 rA) (k0_pay5 (View.ld x0 rA) (View.ld x3 rM)) (k0_pay6 (View.ld x0 rA) (View.ld x1 rA) (View.ld x4 rM)) (k0_pay7 (View.ld x5 rW)) (k0_pay8 (View.ld x6 rW)) (View.ld x7 rB)⟩]

/-- One whole-block store covers the buffer. -/
theorem whole_cover (p0 : Vec F S256x1024 .f32) (y : S256x1024.Idx) :
    ∃ pc ∈ ([⟨rA, p0⟩] : List (View.Piece (Elt F) S256x1024 .f32)), y ∈ pc.1.set :=
  View.cover_of_tiled [⟨rA, p0⟩] S256x1024.size (by rfl) y

/-! ## The body's triple -/

set_option maxHeartbeats 4000000 in
/-- On whole staging buffers, the inputs' at read contents and the outputs' at anything, the body runs to the end
    holding the inputs' as they were and each output's at its one stored piece. -/
theorem body_triple (c : Dev nD) (E : Set ℕ) (i : grid0.Coords) (a0 : Memref sig .tc .vmem S256x1024 .f32) (h0 : a0.IsWhole) (a1 : Memref sig .tc .vmem S256x1024 .f32) (h1 : a1.IsWhole) (a2 : Memref sig .tc .vmem S256x1024 .f32) (h2 : a2.IsWhole) (a3 : Memref sig .tc .vmem S256x4096 .f32) (h3 : a3.IsWhole) (a4 : Memref sig .tc .vmem S256x4096 .f32) (h4 : a4.IsWhole) (a5 : Memref sig .tc .vmem S4x1024x1024 .bf16) (h5 : a5.IsWhole) (a6 : Memref sig .tc .vmem S4x1024x1024 .bf16) (h6 : a6.IsWhole) (a7 : Memref sig .tc .vmem S4x1x1024 .f32) (h7 : a7.IsWhole) (a8 : Memref sig .tc .vmem S256x1024 .f32) (h8 : a8.IsWhole) (a9 : Memref sig .tc .vmem S256x1024 .f32) (h9 : a9.IsWhole)
    (x0 x1 x2 : Vec F S256x1024 .f32) (x3 x4 : Vec F S256x4096 .f32) (x5 x6 : Vec F S4x1024x1024 .bf16) (x7 : Vec F S4x1x1024 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ (∃ d, owns (c : Thread nD τ) a8 fullShare d) ∗ (∃ d, owns (c : Thread nD τ) a9 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare (hxOut x0 x1 x2 x3 x4 x5 x6 x7) ∗ owns (c : Thread nD τ) a9 fullShare (cxOut x0 x1 x2 x3 x4 x5 x6 x7)) -∗ K ⟨⟩))
      ⊢ wp frame (wpE (defs₀ (F := F)) Variants.none c none) E (cc0__lstm_kernel i a0 h0 a1 h1 a2 h2 a3 h3 a4 h4 a5 h5 a6 h6 a7 h7 a8 h8 a9 h9) K := by
  simp only [cc0__lstm_kernel_eq_skeleton]; unfold cc0__lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf0 hf1 hf2 hf3 hf4 hf5 hf6 hf7
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    exact View.read_writes_eq_canon _ _ _ (whole_cover _)
  iexists _; isplitr
  swap; · iexact H9
  ipureintro
  exact View.read_writes_eq_canon _ _ _ (whole_cover _)

/-! ## The pipeline's proof data -/

/-- On core `c`: the arrays as the region finds them; after the body at point `t` each input's buffer at its block
    and each output's at its stored piece over the input blocks; the invariant the scoped rest and the generator
    register, untouched; nothing owed; full shares. -/
def pdata (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => blockAt m c 6 t
    | ⟨7, _⟩ => blockAt m c 7 t
    | ⟨8, _⟩ => hxOut (blockAt m c 0 t) (blockAt m c 1 t) (blockAt m c 2 t) (blockAt m c 3 t) (blockAt m c 4 t) (blockAt m c 5 t) (blockAt m c 6 t) (blockAt m c 7 t)
    | ⟨9, _⟩ => cxOut (blockAt m c 0 t) (blockAt m c 1 t) (blockAt m c 2 t) (blockAt m c 3 t) (blockAt m c 4 t) (blockAt m c 5 t) (blockAt m c 6 t) (blockAt m c 7 t)
  Φ _ := Pipeline.ΦA spec0 c
  q _ := fullShare
  owed _ := 0

theorem pdata_A (c : Dev nD) (w : Fin cfg0.W) : (pdata m 0 c).A w = entry m c (Pipeline.arrRef spec0 w) := by
  dsimp only [pdata]

theorem after_0 (c : Dev nD) (t : Fin cfg0.N) : (pdata m 0 c).after 0 t = blockAt m c 0 t := by dsimp only [pdata]
theorem after_1 (c : Dev nD) (t : Fin cfg0.N) : (pdata m 0 c).after 1 t = blockAt m c 1 t := by dsimp only [pdata]
theorem after_2 (c : Dev nD) (t : Fin cfg0.N) : (pdata m 0 c).after 2 t = blockAt m c 2 t := by dsimp only [pdata]
theorem after_3 (c : Dev nD) (t : Fin cfg0.N) : (pdata m 0 c).after 3 t = blockAt m c 3 t := by dsimp only [pdata]
theorem after_4 (c : Dev nD) (t : Fin cfg0.N) : (pdata m 0 c).after 4 t = blockAt m c 4 t := by dsimp only [pdata]
theorem after_5 (c : Dev nD) (t : Fin cfg0.N) : (pdata m 0 c).after 5 t = blockAt m c 5 t := by dsimp only [pdata]
theorem after_6 (c : Dev nD) (t : Fin cfg0.N) : (pdata m 0 c).after 6 t = blockAt m c 6 t := by dsimp only [pdata]
theorem after_7 (c : Dev nD) (t : Fin cfg0.N) : (pdata m 0 c).after 7 t = blockAt m c 7 t := by dsimp only [pdata]
theorem after_8 (c : Dev nD) (t : Fin cfg0.N) : (pdata m 0 c).after 8 t = hxOut (blockAt m c 0 t) (blockAt m c 1 t) (blockAt m c 2 t) (blockAt m c 3 t) (blockAt m c 4 t) (blockAt m c 5 t) (blockAt m c 6 t) (blockAt m c 7 t) := by dsimp only [pdata]
theorem after_9 (c : Dev nD) (t : Fin cfg0.N) : (pdata m 0 c).after 9 t = cxOut (blockAt m c 0 t) (blockAt m c 1 t) (blockAt m c 2 t) (blockAt m c 3 t) (blockAt m c 4 t) (blockAt m c 5 t) (blockAt m c 6 t) (blockAt m c 7 t) := by dsimp only [pdata]

theorem held_0 (c : Dev nD) (t : Fin cfg0.N) (d) : (pdata m 0 c).before 0 t d = blockAt m c 0 t :=
  held_0_of m (pdata m 0 c) (pdata_A m c 0) (after_0 m c) t d
theorem held_1 (c : Dev nD) (t : Fin cfg0.N) (d) : (pdata m 0 c).before 1 t d = blockAt m c 1 t :=
  held_1_of m (pdata m 0 c) (pdata_A m c 1) (after_1 m c) t d
theorem held_2 (c : Dev nD) (t : Fin cfg0.N) (d) : (pdata m 0 c).before 2 t d = blockAt m c 2 t :=
  held_2_of m (pdata m 0 c) (pdata_A m c 2) (after_2 m c) t d
theorem held_3 (c : Dev nD) (t : Fin cfg0.N) (d) : (pdata m 0 c).before 3 t d = blockAt m c 3 t :=
  held_3_of m (pdata m 0 c) (pdata_A m c 3) (after_3 m c) t d
theorem held_4 (c : Dev nD) (t : Fin cfg0.N) (d) : (pdata m 0 c).before 4 t d = blockAt m c 4 t :=
  held_4_of m (pdata m 0 c) (pdata_A m c 4) (after_4 m c) t d
theorem held_5 (c : Dev nD) (t : Fin cfg0.N) (d) : (pdata m 0 c).before 5 t d = blockAt m c 5 t :=
  held_5_of m (pdata m 0 c) (pdata_A m c 5) (after_5 m c) t d
theorem held_6 (c : Dev nD) (t : Fin cfg0.N) (d) : (pdata m 0 c).before 6 t d = blockAt m c 6 t :=
  held_6_of m (pdata m 0 c) (pdata_A m c 6) (after_6 m c) t d
theorem held_7 (c : Dev nD) (t : Fin cfg0.N) (d) : (pdata m 0 c).before 7 t d = blockAt m c 7 t :=
  held_7_of m (pdata m 0 c) (pdata_A m c 7) (after_7 m c) t d

/-! ## The body obligation -/

/-- What the body is called with at point `t`, the windows one by one, -/
def bodyPre (c : Dev nD) (t : Fin cfg0.N) : sProp 𝕄 :=
  iprop((pdata m 0 c).Φ t.castSucc ∗ (pdata m 0 c).owesAt () t.castSucc
    ∗ (∃ d, owns (c : Thread nD τ) (st0_0 t) fullShare ((pdata m 0 c).before 0 t d))
    ∗ (∃ d, owns (c : Thread nD τ) (st0_1 t) fullShare ((pdata m 0 c).before 1 t d))
    ∗ (∃ d, owns (c : Thread nD τ) (st0_2 t) fullShare ((pdata m 0 c).before 2 t d))
    ∗ (∃ d, owns (c : Thread nD τ) (st0_3 t) fullShare ((pdata m 0 c).before 3 t d))
    ∗ (∃ d, owns (c : Thread nD τ) (st0_4 t) fullShare ((pdata m 0 c).before 4 t d))
    ∗ (∃ d, owns (c : Thread nD τ) (st0_5 t) fullShare ((pdata m 0 c).before 5 t d))
    ∗ (∃ d, owns (c : Thread nD τ) (st0_6 t) fullShare ((pdata m 0 c).before 6 t d))
    ∗ (∃ d, owns (c : Thread nD τ) (st0_7 t) fullShare ((pdata m 0 c).before 7 t d))
    ∗ (∃ d, owns (c : Thread nD τ) (st0_8 t) fullShare ((pdata m 0 c).before 8 t d))
    ∗ (∃ d, owns (c : Thread nD τ) (st0_9 t) fullShare ((pdata m 0 c).before 9 t d)))

/-- and what it returns. -/
def bodyPost (c : Dev nD) (t : Fin cfg0.N) : sProp 𝕄 :=
  iprop((pdata m 0 c).Φ t.succ ∗ (pdata m 0 c).owesAt () t.succ
    ∗ owns (c : Thread nD τ) (st0_0 t) fullShare ((pdata m 0 c).after 0 t)
    ∗ owns (c : Thread nD τ) (st0_1 t) fullShare ((pdata m 0 c).after 1 t)
    ∗ owns (c : Thread nD τ) (st0_2 t) fullShare ((pdata m 0 c).after 2 t)
    ∗ owns (c : Thread nD τ) (st0_3 t) fullShare ((pdata m 0 c).after 3 t)
    ∗ owns (c : Thread nD τ) (st0_4 t) fullShare ((pdata m 0 c).after 4 t)
    ∗ owns (c : Thread nD τ) (st0_5 t) fullShare ((pdata m 0 c).after 5 t)
    ∗ owns (c : Thread nD τ) (st0_6 t) fullShare ((pdata m 0 c).after 6 t)
    ∗ owns (c : Thread nD τ) (st0_7 t) fullShare ((pdata m 0 c).after 7 t)
    ∗ owns (c : Thread nD τ) (st0_8 t) fullShare ((pdata m 0 c).after 8 t)
    ∗ owns (c : Thread nD τ) (st0_9 t) fullShare ((pdata m 0 c).after 9 t))

set_option maxHeartbeats 4000000 in
/-- At any point the inputs' buffers hold their blocks, so the body's triple applies; the invariant and the core's
    debt pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [held_0, held_1, held_2, held_3, held_4, held_5, held_6, held_7]
  rw [show (pdata m 0 c).Φ t.succ = (pdata m 0 c).Φ t.castSucc from rfl,
    show (pdata m 0 c).owesAt () t.succ = (pdata m 0 c).owesAt () t.castSucc from rfl,
    after_0, after_1, after_2, after_3, after_4, after_5, after_6, after_7, after_8, after_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_triple c Set.univ _ _ _ _ _ _ _ _ _ _ _ _ _ _ _ _ _ _ _ _ _ (blockAt m c 0 t) (blockAt m c 1 t) (blockAt m c 2 t) (blockAt m c 3 t) (blockAt m c 4 t) (blockAt m c 5 t) (blockAt m c 6 t) (blockAt m c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

theorem body_obligation (c : Dev nD) : BodyObligation (pdata (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, every array of the
    pipeline at what the write-backs make of the proof data and every other unscoped buffer as the region found it. -/
theorem run_to_post : θ_run defs (onTc (τ := τ) (main (F := F))) (s₀ m ρ) (Pipeline.FramePost cfgs (pdata m) 0 (entry m)) :=
  Pipeline.θ_run_frame cfgs (pdata m) (0 : Fin 1) launch0 defs₀ Variants.none m ρ main
    (hbody := fun c => (body_obligation m c).loose) (hshare := fun c => (pdata m 0 c).share_full fun _ => rfl)
    (howed := fun _ _ => rfl) (V := entry m) (hmain := to_region m Variants.none) (hA := pdata_A m) (hΦ := fun _ _ => rfl)

/-- The frame claim's statement, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  frame_of m ρ (pdata m) (pdata_A m) (run_to_post m ρ)

end Cert.KernelIdeal.Frm

end
-- ==== Proof.LstmSpec.lean ====
/-
  The LSTM cell with per-gate dropout masks, as one function of the seventeen argument arrays, entry by entry, on the
  extended reals. For batch row `b` and hidden unit `o`, each gate's pre-activation is

      Σ_k x[b,k]·mask_x[b, off+k]·Wx[o,k]  +  bx[o]  +  Σ_k h[b,k]·mask_h[b, off+k]·Wh[o,k]

  with `off` the gate's column offset into the 4096-wide masks (forget 0, input 1024, output 2048, candidate 3072), the
  sums over the 1024 input features, grouped exactly so: the x-path's sum, then the bias, then the h-path's sum. The
  candidate's second path reads `x`, not `h`. Then

      c' = σ(f)·c + σ(i)·tanh(g),        h' = σ(o)·tanh(c'),        σ(z) = 1 / (1 + e^(-z)).

  Both programs compute exactly this term, so no law of the extended reals is needed to join them.
-/
import Idealize.ShloMosaic.PureOps.Ideal
import Idealize.ShloMosaic.PureOps.Ideal.Laws
import Idealize.ShloMosaic.Lib.ValueIdx

noncomputable section

namespace Cert.LstmSpec

open Idealize.ShloMosaic Idealize.ShloMosaic.ValueIdx

/-- Column `off + k` of a 4096-wide mask: feature `k` of the gate whose columns start at `off`. -/
def mcol (off : Nat) (h : off + 1024 ≤ 4096) (k : Fin 1024) : Fin 4096 := ⟨off + k.val, by have := k.isLt; omega⟩

/-- One masked linear map at row `b`, unit `o`: the sum over features of input times mask times weight. -/
def lin (u : FVec Ideal ⟨2, ![8192, 1024]⟩ .f32) (mk : FVec Ideal ⟨2, ![8192, 4096]⟩ .f32) (off : Nat) (h : off + 1024 ≤ 4096)
    (W : FVec Ideal ⟨2, ![1024, 1024]⟩ .f32) (b : Fin 8192) (o : Fin 1024) : EReal :=
  ∑ k : Fin 1024, u (ix2 b k) * mk (ix2 b (mcol off h k)) * W (ix2 o k)

/-- A gate's pre-activation: the x-path, plus its bias, plus the second path (over `v`). -/
def pre (u v : FVec Ideal ⟨2, ![8192, 1024]⟩ .f32) (mx mh : FVec Ideal ⟨2, ![8192, 4096]⟩ .f32) (off : Nat) (h : off + 1024 ≤ 4096)
    (Wx Wh : FVec Ideal ⟨2, ![1024, 1024]⟩ .f32) (bx : FVec Ideal ⟨1, ![1024]⟩ .f32) (b : Fin 8192) (o : Fin 1024) : EReal :=
  lin u mx off h Wx b o + bx (ix1 o) + lin v mh off h Wh b o

/-- The new cell state at `(b, o)`. -/
def cellNew (x hx cx : FVec Ideal ⟨2, ![8192, 1024]⟩ .f32) (mx mh : FVec Ideal ⟨2, ![8192, 4096]⟩ .f32)
    (Wxi Wxf Wxc Wxo Whi Whf Whc Who : FVec Ideal ⟨2, ![1024, 1024]⟩ .f32) (bi bf bc bo : FVec Ideal ⟨1, ![1024]⟩ .f32) (b : Fin 8192) (o : Fin 1024) : EReal :=
  Ideal.logistic (pre x hx mx mh 0 (by omega) Wxf Whf bf b o) * cx (ix2 b o)
    + Ideal.logistic (pre x hx mx mh 1024 (by omega) Wxi Whi bi b o) * Ideal.tanh (pre x x mx mh 3072 (by omega) Wxc Whc bc b o)

/-- The new hidden state at `(b, o)`. -/
def hidNew (x hx cx : FVec Ideal ⟨2, ![8192, 1024]⟩ .f32) (mx mh : FVec Ideal ⟨2, ![8192, 4096]⟩ .f32)
    (Wxi Wxf Wxc Wxo Whi Whf Whc Who : FVec Ideal ⟨2, ![1024, 1024]⟩ .f32) (bi bf bc bo : FVec Ideal ⟨1, ![1024]⟩ .f32) (b : Fin 8192) (o : Fin 1024) : EReal :=
  Ideal.logistic (pre x hx mx mh 2048 (by omega) Wxo Who bo b o) * Ideal.tanh (cellNew x hx cx mx mh Wxi Wxf Wxc Wxo Whi Whf Whc Who bi bf bc bo b o)

/-- The two result arrays. -/
def cellArr (x hx cx : FVec Ideal ⟨2, ![8192, 1024]⟩ .f32) (mx mh : FVec Ideal ⟨2, ![8192, 4096]⟩ .f32)
    (Wxi Wxf Wxc Wxo Whi Whf Whc Who : FVec Ideal ⟨2, ![1024, 1024]⟩ .f32) (bi bf bc bo : FVec Ideal ⟨1, ![1024]⟩ .f32) : FVec Ideal ⟨2, ![8192, 1024]⟩ .f32 :=
  fun j => cellNew x hx cx mx mh Wxi Wxf Wxc Wxo Whi Whf Whc Who bi bf bc bo (j 0) (j 1)
def hidArr (x hx cx : FVec Ideal ⟨2, ![8192, 1024]⟩ .f32) (mx mh : FVec Ideal ⟨2, ![8192, 4096]⟩ .f32)
    (Wxi Wxf Wxc Wxo Whi Whf Whc Who : FVec Ideal ⟨2, ![1024, 1024]⟩ .f32) (bi bf bc bo : FVec Ideal ⟨1, ![1024]⟩ .f32) : FVec Ideal ⟨2, ![8192, 1024]⟩ .f32 :=
  fun j => hidNew x hx cx mx mh Wxi Wxf Wxc Wxo Whi Whf Whc Who bi bf bc bo (j 0) (j 1)

/-- The single-precision pattern of one denotes one. -/
theorem one_f32 : Ideal.ofBits .f32 0x3F800000#32 = (1 : EReal) := by
  simp [Ideal.ofBits, Ideal.ieee, -EReal.coe_mul]; norm_num

/-- The host's expansion of the logistic — one over one plus the exponential of the negation, the ones as literals —
    is the logistic. -/
theorem logistic_expanded (z : EReal) :
    Ideal.div (Ideal.ofBits .f32 0x3F800000#32) (Ideal.ofBits .f32 0x3F800000#32 + Ideal.exp (-z)) = Ideal.logistic z := by
  rw [one_f32]; rfl

end Cert.LstmSpec

end
-- ==== Proof.LstmRef.lean ====
/-
  The reference program's two results, entry by entry, are the specification's new hidden and new cell state. Read one
  operation at a time: a gate's column slice of a mask is the mask at the shifted column; each matrix product against
  a weight stored [out, in] is the sum over input features; the bias is broadcast along the rows; the logistic is
  spelled as one over one plus the exponential of the negation, with the ones as literals.
-/
import proofs.«147330_j35476429865299_2_alg».proof.Proof.Gen.ReferenceIdeal.Read
import proofs.«147330_j35476429865299_2_alg».proof.Proof.LstmSpec

noncomputable section

namespace Cert.LstmRef

open Idealize.ShloMosaic Idealize.ShloMosaic.ValueIdx Cert.ReferenceIdeal Cert.ReferenceIdeal.Read

/-! ## The eight masked products -/

theorem dot9 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v9 (F := Ideal) u mk W i = LstmSpec.lin u mk 0 (by omega) W (i 0) (i 1) := by
  rw [val_main_v9_apply]; unfold LstmSpec.lin
  refine Finset.sum_congr rfl fun k _ => ?_
  rw [val_main_v8_apply, val_main_v0_apply]
  have hl : lidx_main_v9 i k = ix2 (i 0) k := funext fun a => Fin.ext (by match a with | ⟨0, _⟩ => rfl | ⟨1, _⟩ => rfl)
  have hr : ridx_main_v9 i k = ix2 (i 1) k := funext fun a => Fin.ext (by match a with | ⟨0, _⟩ => rfl | ⟨1, _⟩ => rfl)
  have hm : idx_main_v0 (ix2 (i 0) k) = ix2 (i 0) (LstmSpec.mcol 0 (by omega) k) :=
    funext fun a => Fin.ext (by match a with | ⟨0, _⟩ => rfl | ⟨1, _⟩ => first | rfl | exact (Nat.zero_add _).symm)
  rw [hl, hr, hm]; rfl

theorem dot14 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v14 (F := Ideal) u mk W i = LstmSpec.lin u mk 0 (by omega) W (i 0) (i 1) := by
  rw [val_main_v14_apply]; unfold LstmSpec.lin
  refine Finset.sum_congr rfl fun k _ => ?_
  rw [val_main_v13_apply, val_main_v4_apply]
  have hl : lidx_main_v14 i k = ix2 (i 0) k := funext fun a => Fin.ext (by match a with | ⟨0, _⟩ => rfl | ⟨1, _⟩ => rfl)
  have hr : ridx_main_v14 i k = ix2 (i 1) k := funext fun a => Fin.ext (by match a with | ⟨0, _⟩ => rfl | ⟨1, _⟩ => rfl)
  have hm : idx_main_v4 (ix2 (i 0) k) = ix2 (i 0) (LstmSpec.mcol 0 (by omega) k) :=
    funext fun a => Fin.ext (by match a with | ⟨0, _⟩ => rfl | ⟨1, _⟩ => first | rfl | exact (Nat.zero_add _).symm)
  rw [hl, hr, hm]; rfl

theorem dot23 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v23 (F := Ideal) u mk W i = LstmSpec.lin u mk 1024 (by omega) W (i 0) (i 1) := by
  rw [val_main_v23_apply]; unfold LstmSpec.lin
  refine Finset.sum_congr rfl fun k _ => ?_
  rw [val_main_v22_apply, val_main_v1_apply]
  have hl : lidx_main_v23 i k = ix2 (i 0) k := funext fun a => Fin.ext (by match a with | ⟨0, _⟩ => rfl | ⟨1, _⟩ => rfl)
  have hr : ridx_main_v23 i k = ix2 (i 1) k := funext fun a => Fin.ext (by match a with | ⟨0, _⟩ => rfl | ⟨1, _⟩ => rfl)
  have hm : idx_main_v1 (ix2 (i 0) k) = ix2 (i 0) (LstmSpec.mcol 1024 (by omega) k) :=
    funext fun a => Fin.ext (by match a with | ⟨0, _⟩ => rfl | ⟨1, _⟩ => first | rfl | exact (Nat.zero_add _).symm)
  rw [hl, hr, hm]; rfl

theorem dot28 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v28 (F := Ideal) u mk W i = LstmSpec.lin u mk 1024 (by omega) W (i 0) (i 1) := by
  rw [val_main_v28_apply]; unfold LstmSpec.lin
  refine Finset.sum_congr rfl fun k _ => ?_
  rw [val_main_v27_apply, val_main_v5_apply]
  have hl : lidx_main_v28 i k = ix2 (i 0) k := funext fun a => Fin.ext (by match a with | ⟨0, _⟩ => rfl | ⟨1, _⟩ => rfl)
  have hr : ridx_main_v28 i k = ix2 (i 1) k := funext fun a => Fin.ext (by match a with | ⟨0, _⟩ => rfl | ⟨1, _⟩ => rfl)
  have hm : idx_main_v5 (ix2 (i 0) k) = ix2 (i 0) (LstmSpec.mcol 1024 (by omega) k) :=
    funext fun a => Fin.ext (by match a with | ⟨0, _⟩ => rfl | ⟨1, _⟩ => first | rfl | exact (Nat.zero_add _).symm)
  rw [hl, hr, hm]; rfl

theorem dot37 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v37 (F := Ideal) u mk W i = LstmSpec.lin u mk 2048 (by omega) W (i 0) (i 1) := by
  rw [val_main_v37_apply]; unfold LstmSpec.lin
  refine Finset.sum_congr rfl fun k _ => ?_
  rw [val_main_v36_apply, val_main_v2_apply]
  have hl : lidx_main_v37 i k = ix2 (i 0) k := funext fun a => Fin.ext (by match a with | ⟨0, _⟩ => rfl | ⟨1, _⟩ => rfl)
  have hr : ridx_main_v37 i k = ix2 (i 1) k := funext fun a => Fin.ext (by match a with | ⟨0, _⟩ => rfl | ⟨1, _⟩ => rfl)
  have hm : idx_main_v2 (ix2 (i 0) k) = ix2 (i 0) (LstmSpec.mcol 2048 (by omega) k) :=
    funext fun a => Fin.ext (by match a with | ⟨0, _⟩ => rfl | ⟨1, _⟩ => first | rfl | exact (Nat.zero_add _).symm)
  rw [hl, hr, hm]; rfl

theorem dot42 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v42 (F := Ideal) u mk W i = LstmSpec.lin u mk 2048 (by omega) W (i 0) (i 1) := by
  rw [val_main_v42_apply]; unfold LstmSpec.lin
  refine Finset.sum_congr rfl fun k _ => ?_
  rw [val_main_v41_apply, val_main_v6_apply]
  have hl : lidx_main_v42 i k = ix2 (i 0) k := funext fun a => Fin.ext (by match a with | ⟨0, _⟩ => rfl | ⟨1, _⟩ => rfl)
  have hr : ridx_main_v42 i k = ix2 (i 1) k := funext fun a => Fin.ext (by match a with | ⟨0, _⟩ => rfl | ⟨1, _⟩ => rfl)
  have hm : idx_main_v6 (ix2 (i 0) k) = ix2 (i 0) (LstmSpec.mcol 2048 (by omega) k) :=
    funext fun a => Fin.ext (by match a with | ⟨0, _⟩ => rfl | ⟨1, _⟩ => first | rfl | exact (Nat.zero_add _).symm)
  rw [hl, hr, hm]; rfl

theorem dot51 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v51 (F := Ideal) u mk W i = LstmSpec.lin u mk 3072 (by omega) W (i 0) (i 1) := by
  rw [val_main_v51_apply]; unfold LstmSpec.lin
  refine Finset.sum_congr rfl fun k _ => ?_
  rw [val_main_v50_apply, val_main_v3_apply]
  have hl : lidx_main_v51 i k = ix2 (i 0) k := funext fun a => Fin.ext (by match a with | ⟨0, _⟩ => rfl | ⟨1, _⟩ => rfl)
  have hr : ridx_main_v51 i k = ix2 (i 1) k := funext fun a => Fin.ext (by match a with | ⟨0, _⟩ => rfl | ⟨1, _⟩ => rfl)
  have hm : idx_main_v3 (ix2 (i 0) k) = ix2 (i 0) (LstmSpec.mcol 3072 (by omega) k) :=
    funext fun a => Fin.ext (by match a with | ⟨0, _⟩ => rfl | ⟨1, _⟩ => first | rfl | exact (Nat.zero_add _).symm)
  rw [hl, hr, hm]; rfl

theorem dot56 (u : (⟨S8192x1024, .f32⟩ : BufTy).Contents (Elt Ideal)) (mk : (⟨S8192x4096, .f32⟩ : BufTy).Contents (Elt Ideal)) (W : (⟨S1024x1024, .f32⟩ : BufTy).Contents (Elt Ideal)) (i : S8192x1024.Idx) :
    val_main_v56 (F := Ideal) u mk W i = LstmSpec.lin u mk 3072 (by omega) W (i 0) (i 1) := by
  rw [val_main_v56_apply]; unfold LstmSpec.lin
  refine Finset.sum_congr rfl fun k _ => ?_
  rw [val_main_v55_apply, val_main_v7_apply]
  have hl : lidx_main_v56 i k = ix2 (i 0) k := funext fun a => Fin.ext (by match a with | ⟨0, _⟩ => rfl | ⟨1, _⟩ => rfl)
  have hr : ridx_main_v56 i k = ix2 (i 1) k := funext fun a => Fin.ext (by match a with | ⟨0, _⟩ => rfl | ⟨1, _⟩ => rfl)
  have hm : idx_main_v7 (ix2 (i 0) k) = ix2 (i 0) (LstmSpec.mcol 3072 (by omega) k) :=
    funext fun a => Fin.ext (by match a with | ⟨0, _⟩ => rfl | ⟨1, _⟩ => first | rfl | exact (Nat.zero_add _).symm)
  rw [hl, hr, hm]; rfl

/-! ## The biases, broadcast along the rows -/

theorem bias11 (v : (⟨S1024, .f32⟩ : BufTy).Contents (Elt Ideal)) (i : S8192x1024.Idx) : val_main_v11 (F := Ideal) v i = v (ix1 (i 1)) := by
  rw [val_main_v11_apply, val_main_v10_apply]
  exact congrArg v (funext fun a => Fin.ext (by match a with | ⟨0, _⟩ => rfl))

theorem bias25 (v : (⟨S1024, .f32⟩ : BufTy).Contents (Elt Ideal)) (i : S8192x1024.Idx) : val_main_v25 (F := Ideal) v i = v (ix1 (i 1)) := by
  rw [val_main_v25_apply, val_main_v24_apply]
  exact congrArg v (funext fun a => Fin.ext (by match a with | ⟨0, _⟩ => rfl))

theorem bias39 (v : (⟨S1024, .f32⟩ : BufTy).Contents (Elt Ideal)) (i : S8192x1024.Idx) : val_main_v39 (F := Ideal) v i = v (ix1 (i 1)) := by
  rw [val_main_v39_apply, val_main_v38_apply]
  exact congrArg v (funext fun a => Fin.ext (by match a with | ⟨0, _⟩ => rfl))

theorem bias53 (v : (⟨S1024, .f32⟩ : BufTy).Contents (Elt Ideal)) (i : S8192x1024.Idx) : val_main_v53 (F := Ideal) v i = v (ix1 (i 1)) := by
  rw [val_main_v53_apply, val_main_v52_apply]
  exact congrArg v (funext fun a => Fin.ext (by match a with | ⟨0, _⟩ => rfl))

/-! ## The literal ones -/

theorem one18 (i : S8192x1024.Idx) : val_main_v18 (F := Ideal) i = Ideal.ofBits .f32 0x3F800000#32 := by
  rw [val_main_v18_apply, val_main_cst_apply]; rfl
theorem one20 (i : S8192x1024.Idx) : val_main_v20 (F := Ideal) i = Ideal.ofBits .f32 0x3F800000#32 := by
  rw [val_main_v20_apply, val_main_cst_0_apply]; rfl
theorem one32 (i : S8192x1024.Idx) : val_main_v32 (F := Ideal) i = Ideal.ofBits .f32 0x3F800000#32 := by
  rw [val_main_v32_apply, val_main_cst_1_apply]; rfl
theorem one34 (i : S8192x1024.Idx) : val_main_v34 (F := Ideal) i = Ideal.ofBits .f32 0x3F800000#32 := by
  rw [val_main_v34_apply, val_main_cst_2_apply]; rfl
theorem one46 (i : S8192x1024.Idx) : val_main_v46 (F := Ideal) i = Ideal.ofBits .f32 0x3F800000#32 := by
  rw [val_main_v46_apply, val_main_cst_3_apply]; rfl
theorem one48 (i : S8192x1024.Idx) : val_main_v48 (F := Ideal) i = Ideal.ofBits .f32 0x3F800000#32 := by
  rw [val_main_v48_apply, val_main_cst_4_apply]; rfl

/-! ## The gates -/

theorem gate21 (x0 x1 : (⟨S8192x1024, .f32⟩ : BufTy).Contents (Elt Ideal)) (x3 x4 : (⟨S8192x4096, .f32⟩ : BufTy).Contents (Elt Ideal)) (x6 x10 : (⟨S1024x1024, .f32⟩ : BufTy).Contents (Elt Ideal)) (x14 : (⟨S1024, .f32⟩ : BufTy).Contents (Elt Ideal)) (i : S8192x1024.Idx) :
    val_main_v21 (F := Ideal) x0 x1 x3 x4 x6 x10 x14 i = Ideal.logistic (LstmSpec.pre x0 x1 x3 x4 0 (by omega) x6 x10 x14 (i 0) (i 1)) := by
  rw [val_main_v21_apply, one20, val_main_v19_apply, one18, val_main_v17_apply, val_main_v16_apply, val_main_v15_apply,
    val_main_v12_apply, dot9, bias11, dot14]
  unfold LstmSpec.pre
  exact LstmSpec.logistic_expanded _

theorem gate35 (x0 x1 : (⟨S8192x1024, .f32⟩ : BufTy).Contents (Elt Ideal)) (x3 x4 : (⟨S8192x4096, .f32⟩ : BufTy).Contents (Elt Ideal)) (x5 x9 : (⟨S1024x1024, .f32⟩ : BufTy).Contents (Elt Ideal)) (x13 : (⟨S1024, .f32⟩ : BufTy).Contents (Elt Ideal)) (i : S8192x1024.Idx) :
    val_main_v35 (F := Ideal) x0 x1 x3 x4 x5 x9 x13 i = Ideal.logistic (LstmSpec.pre x0 x1 x3 x4 1024 (by omega) x5 x9 x13 (i 0) (i 1)) := by
  rw [val_main_v35_apply, one34, val_main_v33_apply, one32, val_main_v31_apply, val_main_v30_apply, val_main_v29_apply,
    val_main_v26_apply, dot23, bias25, dot28]
  unfold LstmSpec.pre
  exact LstmSpec.logistic_expanded _

theorem gate49 (x0 x1 : (⟨S8192x1024, .f32⟩ : BufTy).Contents (Elt Ideal)) (x3 x4 : (⟨S8192x4096, .f32⟩ : BufTy).Contents (Elt Ideal)) (x8 x12 : (⟨S1024x1024, .f32⟩ : BufTy).Contents (Elt Ideal)) (x16 : (⟨S1024, .f32⟩ : BufTy).Contents (Elt Ideal)) (i : S8192x1024.Idx) :
    val_main_v49 (F := Ideal) x0 x1 x3 x4 x8 x12 x16 i = Ideal.logistic (LstmSpec.pre x0 x1 x3 x4 2048 (by omega) x8 x12 x16 (i 0) (i 1)) := by
  rw [val_main_v49_apply, one48, val_main_v47_apply, one46, val_main_v45_apply, val_main_v44_apply, val_main_v43_apply,
    val_main_v40_apply, dot37, bias39, dot42]
  unfold LstmSpec.pre
  exact LstmSpec.logistic_expanded _

theorem gate58 (x0 : (⟨S8192x1024, .f32⟩ : BufTy).Contents (Elt Ideal)) (x3 x4 : (⟨S8192x4096, .f32⟩ : BufTy).Contents (Elt Ideal)) (x7 x11 : (⟨S1024x1024, .f32⟩ : BufTy).Contents (Elt Ideal)) (x15 : (⟨S1024, .f32⟩ : BufTy).Contents (Elt Ideal)) (i : S8192x1024.Idx) :
    val_main_v58 (F := Ideal) x0 x3 x4 x7 x11 x15 i = Ideal.tanh (LstmSpec.pre x0 x0 x3 x4 3072 (by omega) x7 x11 x15 (i 0) (i 1)) := by
  rw [val_main_v58_apply, val_main_v57_apply, val_main_v54_apply, dot51, bias53, dot56]
  rfl

/-! ## The two results -/

theorem cell_eq (x0 x1 x2 : (⟨S8192x1024, .f32⟩ : BufTy).Contents (Elt Ideal)) (x3 x4 : (⟨S8192x4096, .f32⟩ : BufTy).Contents (Elt Ideal)) (x5 x6 x7 x8 x9 x10 x11 x12 : (⟨S1024x1024, .f32⟩ : BufTy).Contents (Elt Ideal)) (x13 x14 x15 x16 : (⟨S1024, .f32⟩ : BufTy).Contents (Elt Ideal)) :
    val_main_v61 (F := Ideal) x0 x1 x2 x3 x4 x5 x6 x7 x9 x10 x11 x13 x14 x15
      = LstmSpec.cellArr x0 x1 x2 x3 x4 x5 x6 x7 x8 x9 x10 x11 x12 x13 x14 x15 x16 := by
  funext i
  rw [val_main_v61_apply, val_main_v59_apply, val_main_v60_apply, gate21, gate35, gate58]
  have hi : x2 i = x2 (ix2 (i 0) (i 1)) := congrArg x2 (eq_ix2 i)
  rw [hi]
  rfl

theorem hid_eq (x0 x1 x2 : (⟨S8192x1024, .f32⟩ : BufTy).Contents (Elt Ideal)) (x3 x4 : (⟨S8192x4096, .f32⟩ : BufTy).Contents (Elt Ideal)) (x5 x6 x7 x8 x9 x10 x11 x12 : (⟨S1024x1024, .f32⟩ : BufTy).Contents (Elt Ideal)) (x13 x14 x15 x16 : (⟨S1024, .f32⟩ : BufTy).Contents (Elt Ideal)) :
    val_main_v63 (F := Ideal) x0 x1 x2 x3 x4 x5 x6 x7 x8 x9 x10 x11 x12 x13 x14 x15 x16
      = LstmSpec.hidArr x0 x1 x2 x3 x4 x5 x6 x7 x8 x9 x10 x11 x12 x13 x14 x15 x16 := by
  funext i
  rw [val_main_v63_apply, val_main_v62_apply, gate49, cell_eq x0 x1 x2 x3 x4 x5 x6 x7 x8 x9 x10 x11 x12 x13 x14 x15 x16]
  rfl

end Cert.LstmRef

end
-- ==== Proof.LstmBody.lean ====
/-
  The body's arithmetic read at one entry of a block. With `p` a row of the 256-row block and `q` a hidden unit, the
  pre-activation tensor of the four gates (stacked along a leading axis of extent four) is, at `(g, p, q)`,

      Σ_k x[p,k]·mx[p, g·1024+k]·Wx[g,q,k]  +  b[g,0,q]  +  Σ_k u[p,k]·mh[p, g·1024+k]·Wh[g,q,k]

  where `u` is the hidden block for the forget, input and output gates and the input block for the candidate. The two
  stacked left operands are four masked products laid side by side along the gate axis; the batched matrix product
  contracts the feature axis of both operands, gate by gate; the stacked bias is broadcast along the rows; the casts
  to the narrower format are the identity on the extended reals. Each gate's slab is then cut out, passed through the
  logistic or the hyperbolic tangent, and combined entrywise.
-/
import proofs.«147330_j35476429865299_2_alg».proof.Proof.Gen.KernelIdeal.Skeleton
import proofs.«147330_j35476429865299_2_alg».proof.Proof.LstmSpec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.LstmBody

open Idealize.ShloMosaic Idealize.ShloMosaic.ValueIdx Cert.KernelIdeal Cert.KernelIdeal.Gen

/-! ## The block-level term -/

/-- One masked product of a block against gate `g`'s slab of a stacked weight. -/
def blkLin (u : FVec Ideal S256x1024 .f32) (mk : FVec Ideal S256x4096 .f32) (off : Nat) (h : off + 1024 ≤ 4096)
    (W : FVec Ideal S4x1024x1024 .bf16) (g : Fin 4) (p : Fin 256) (q : Fin 1024) : EReal :=
  ∑ k : Fin 1024, u (ix2 p k) * mk (ix2 p (LstmSpec.mcol off h k)) * W (ix3 g q k)

/-- A gate's pre-activation on a block. -/
def blkPre (u v : FVec Ideal S256x1024 .f32) (mx mh : FVec Ideal S256x4096 .f32) (off : Nat) (h : off + 1024 ≤ 4096)
    (Wx Wh : FVec Ideal S4x1024x1024 .bf16) (bs : FVec Ideal S4x1x1024 .f32) (g : Fin 4) (p : Fin 256) (q : Fin 1024) : EReal :=
  blkLin u mx off h Wx g p q + bs (ix3 g (0 : Fin 1) q) + blkLin v mh off h Wh g p q

/-! ## Entrywise operations -/

theorem logistic_at {s : Shape} {φ : FTy} (a : FVec Ideal s φ) (i : s.Idx) : logistic a i = Ideal.logistic (a i) := rfl
theorem tanh_at {s : Shape} {φ : FTy} (a : FVec Ideal s φ) (i : s.Idx) : tanh a i = Ideal.tanh (a i) := rfl

/-! ## Four slabs stacked along a new leading axis -/

theorem stackA0 (y0 y1 y2 y3 : FVec Ideal S1x256x1024 .bf16) (h : Shape.Concatenates (([⟨S1x256x1024, y0⟩, ⟨S1x256x1024, y1⟩, ⟨S1x256x1024, y2⟩, ⟨S1x256x1024, y3⟩] : List ((s : Shape) × (s.Idx → Ideal .bf16))).map (·.1)) S4x256x1024 0)
    (p : Fin 256) (k : Fin 1024) :
    concatenate S4x256x1024 0 [⟨S1x256x1024, y0⟩, ⟨S1x256x1024, y1⟩, ⟨S1x256x1024, y2⟩, ⟨S1x256x1024, y3⟩] h (ix3 (0 : Fin 4) p k) = y0 (ix3 (0 : Fin 1) p k) :=
  concatenate_apply_piece (0 : Fin 3) [⟨S1x256x1024, y0⟩, ⟨S1x256x1024, y1⟩, ⟨S1x256x1024, y2⟩, ⟨S1x256x1024, y3⟩] h (ix3 (0 : Fin 4) p k) 0 (by simp) S1x256x1024 y0 rfl rfl 0 rfl (ix3 (0 : Fin 1) p k)
    (fun b hb => by match b with | ⟨0, _⟩ => exact absurd rfl hb | ⟨1, _⟩ => rfl | ⟨2, _⟩ => rfl) rfl
theorem stackA1 (y0 y1 y2 y3 : FVec Ideal S1x256x1024 .bf16) (h : Shape.Concatenates (([⟨S1x256x1024, y0⟩, ⟨S1x256x1024, y1⟩, ⟨S1x256x1024, y2⟩, ⟨S1x256x1024, y3⟩] : List ((s : Shape) × (s.Idx → Ideal .bf16))).map (·.1)) S4x256x1024 0)
    (p : Fin 256) (k : Fin 1024) :
    concatenate S4x256x1024 0 [⟨S1x256x1024, y0⟩, ⟨S1x256x1024, y1⟩, ⟨S1x256x1024, y2⟩, ⟨S1x256x1024, y3⟩] h (ix3 (1 : Fin 4) p k) = y1 (ix3 (0 : Fin 1) p k) :=
  concatenate_apply_piece (0 : Fin 3) [⟨S1x256x1024, y0⟩, ⟨S1x256x1024, y1⟩, ⟨S1x256x1024, y2⟩, ⟨S1x256x1024, y3⟩] h (ix3 (1 : Fin 4) p k) 1 (by simp) S1x256x1024 y1 rfl rfl 1 rfl (ix3 (0 : Fin 1) p k)
    (fun b hb => by match b with | ⟨0, _⟩ => exact absurd rfl hb | ⟨1, _⟩ => rfl | ⟨2, _⟩ => rfl) rfl
theorem stackA2 (y0 y1 y2 y3 : FVec Ideal S1x256x1024 .bf16) (h : Shape.Concatenates (([⟨S1x256x1024, y0⟩, ⟨S1x256x1024, y1⟩, ⟨S1x256x1024, y2⟩, ⟨S1x256x1024, y3⟩] : List ((s : Shape) × (s.Idx → Ideal .bf16))).map (·.1)) S4x256x1024 0)
    (p : Fin 256) (k : Fin 1024) :
    concatenate S4x256x1024 0 [⟨S1x256x1024, y0⟩, ⟨S1x256x1024, y1⟩, ⟨S1x256x1024, y2⟩, ⟨S1x256x1024, y3⟩] h (ix3 (2 : Fin 4) p k) = y2 (ix3 (0 : Fin 1) p k) :=
  concatenate_apply_piece (0 : Fin 3) [⟨S1x256x1024, y0⟩, ⟨S1x256x1024, y1⟩, ⟨S1x256x1024, y2⟩, ⟨S1x256x1024, y3⟩] h (ix3 (2 : Fin 4) p k) 2 (by simp) S1x256x1024 y2 rfl rfl 2 rfl (ix3 (0 : Fin 1) p k)
    (fun b hb => by match b with | ⟨0, _⟩ => exact absurd rfl hb | ⟨1, _⟩ => rfl | ⟨2, _⟩ => rfl) rfl
theorem stackA3 (y0 y1 y2 y3 : FVec Ideal S1x256x1024 .bf16) (h : Shape.Concatenates (([⟨S1x256x1024, y0⟩, ⟨S1x256x1024, y1⟩, ⟨S1x256x1024, y2⟩, ⟨S1x256x1024, y3⟩] : List ((s : Shape) × (s.Idx → Ideal .bf16))).map (·.1)) S4x256x1024 0)
    (p : Fin 256) (k : Fin 1024) :
    concatenate S4x256x1024 0 [⟨S1x256x1024, y0⟩, ⟨S1x256x1024, y1⟩, ⟨S1x256x1024, y2⟩, ⟨S1x256x1024, y3⟩] h (ix3 (3 : Fin 4) p k) = y3 (ix3 (0 : Fin 1) p k) :=
  concatenate_apply_piece (0 : Fin 3) [⟨S1x256x1024, y0⟩, ⟨S1x256x1024, y1⟩, ⟨S1x256x1024, y2⟩, ⟨S1x256x1024, y3⟩] h (ix3 (3 : Fin 4) p k) 3 (by simp) S1x256x1024 y3 rfl rfl 3 rfl (ix3 (0 : Fin 1) p k)
    (fun b hb => by match b with | ⟨0, _⟩ => exact absurd rfl hb | ⟨1, _⟩ => rfl | ⟨2, _⟩ => rfl) rfl

/-! ## The batched product: gate by gate, contracting the feature axis of both operands -/

theorem lhs_ax0 (j : S4x256x1024.Idx) (c : dot_S4x256x1024_S4x1024x1024_S4x256x1024_2_2_1_1_0_0.contr.Idx) : (dot_S4x256x1024_S4x1024x1024_S4x256x1024_2_2_1_1_0_0.lhsIdx j c 0).val = (j 0).val := by
  unfold DotDims.lhsIdx
  rw [dif_pos (show (0 : Fin S4x256x1024.rank) ∈ dot_S4x256x1024_S4x1024x1024_S4x256x1024_2_2_1_1_0_0.lhsBatch by decide)]
  rfl
theorem lhs_ax1 (j : S4x256x1024.Idx) (c : dot_S4x256x1024_S4x1024x1024_S4x256x1024_2_2_1_1_0_0.contr.Idx) : (dot_S4x256x1024_S4x1024x1024_S4x256x1024_2_2_1_1_0_0.lhsIdx j c 1).val = (j 1).val := by
  unfold DotDims.lhsIdx
  rw [dif_neg (show ¬(1 : Fin S4x256x1024.rank) ∈ dot_S4x256x1024_S4x1024x1024_S4x256x1024_2_2_1_1_0_0.lhsBatch by decide), dif_pos (show (1 : Fin S4x256x1024.rank) ∈ dot_S4x256x1024_S4x1024x1024_S4x256x1024_2_2_1_1_0_0.lhsNonContracting by decide)]
  rfl
theorem lhs_ax2 (j : S4x256x1024.Idx) (c : dot_S4x256x1024_S4x1024x1024_S4x256x1024_2_2_1_1_0_0.contr.Idx) : (dot_S4x256x1024_S4x1024x1024_S4x256x1024_2_2_1_1_0_0.lhsIdx j c 2).val = (c ⟨0, by decide⟩).val :=
  dot_S4x256x1024_S4x1024x1024_S4x256x1024_2_2_1_1_0_0.lhsIdx_val_of_single rfl j c
theorem rhs_ax0 (j : S4x256x1024.Idx) (c : dot_S4x256x1024_S4x1024x1024_S4x256x1024_2_2_1_1_0_0.contr.Idx) : (dot_S4x256x1024_S4x1024x1024_S4x256x1024_2_2_1_1_0_0.rhsIdx j c 0).val = (j 0).val := by
  unfold DotDims.rhsIdx
  rw [dif_pos (show (0 : Fin S4x1024x1024.rank) ∈ dot_S4x256x1024_S4x1024x1024_S4x256x1024_2_2_1_1_0_0.rhsBatch by decide)]
  rfl
theorem rhs_ax1 (j : S4x256x1024.Idx) (c : dot_S4x256x1024_S4x1024x1024_S4x256x1024_2_2_1_1_0_0.contr.Idx) : (dot_S4x256x1024_S4x1024x1024_S4x256x1024_2_2_1_1_0_0.rhsIdx j c 1).val = (j 2).val := by
  unfold DotDims.rhsIdx
  rw [dif_neg (show ¬(1 : Fin S4x1024x1024.rank) ∈ dot_S4x256x1024_S4x1024x1024_S4x256x1024_2_2_1_1_0_0.rhsBatch by decide), dif_pos (show (1 : Fin S4x1024x1024.rank) ∈ dot_S4x256x1024_S4x1024x1024_S4x256x1024_2_2_1_1_0_0.rhsNonContracting by decide)]
  rfl
theorem rhs_ax2 (j : S4x256x1024.Idx) (c : dot_S4x256x1024_S4x1024x1024_S4x256x1024_2_2_1_1_0_0.contr.Idx) : (dot_S4x256x1024_S4x1024x1024_S4x256x1024_2_2_1_1_0_0.rhsIdx j c 2).val = (c ⟨0, by decide⟩).val :=
  dot_S4x256x1024_S4x1024x1024_S4x256x1024_2_2_1_1_0_0.rhsIdx_val_of_single rfl j c

theorem prod_at (Lh : FVec Ideal S4x256x1024 .bf16) (Rh : FVec Ideal S4x1024x1024 .bf16) (g : Fin 4) (p : Fin 256) (q : Fin 1024) :
    matmul (F := Ideal) dot_S4x256x1024_S4x1024x1024_S4x256x1024_2_2_1_1_0_0 none Lh Rh (constant S4x256x1024 .f32 0x00000000#32) (ix3 g p q)
      = ∑ k : Fin 1024, Lh (ix3 g p k) * Rh (ix3 g q k) := by
  simp only [matmul]
  rw [Ideal.matmul_constant_zero_apply, ← Equiv.sum_comp (contrEquiv1 dot_S4x256x1024_S4x1024x1024_S4x256x1024_2_2_1_1_0_0 1024 rfl rfl).symm]
  refine Finset.sum_congr rfl fun k _ => ?_
  have hk := contrEquiv1_symm_val dot_S4x256x1024_S4x1024x1024_S4x256x1024_2_2_1_1_0_0 1024 rfl rfl k
  have el : dot_S4x256x1024_S4x1024x1024_S4x256x1024_2_2_1_1_0_0.lhsIdx (ix3 g p q) ((contrEquiv1 dot_S4x256x1024_S4x1024x1024_S4x256x1024_2_2_1_1_0_0 1024 rfl rfl).symm k) = ix3 g p k := funext fun a => Fin.ext (by
    match a with
    | ⟨0, _⟩ => exact lhs_ax0 _ _
    | ⟨1, _⟩ => exact lhs_ax1 _ _
    | ⟨2, _⟩ => exact (lhs_ax2 _ _).trans hk)
  have er : dot_S4x256x1024_S4x1024x1024_S4x256x1024_2_2_1_1_0_0.rhsIdx (ix3 g p q) ((contrEquiv1 dot_S4x256x1024_S4x1024x1024_S4x256x1024_2_2_1_1_0_0 1024 rfl rfl).symm k) = ix3 g q k := funext fun a => Fin.ext (by
    match a with
    | ⟨0, _⟩ => exact rhs_ax0 _ _
    | ⟨1, _⟩ => exact rhs_ax1 _ _
    | ⟨2, _⟩ => exact (rhs_ax2 _ _).trans hk)
  rw [el, er]

/-! ## The stacked bias, broadcast along the rows -/

theorem bias_at (bs : FVec Ideal S4x1x1024 .f32) (h : S4x1x1024.Broadcasts S4x256x1024) (g : Fin 4) (p : Fin 256) (q : Fin 1024) :
    broadcastTo S4x256x1024 bs h (ix3 g p q) = bs (ix3 g (0 : Fin 1) q) :=
  broadcastTo_apply bs h (ix3 g p q) (ix3 g (0 : Fin 1) q) (fun a => by
    match a with
    | ⟨0, _⟩ => show g.val = if (4 : Nat) = 1 then 0 else g.val; rw [if_neg (by decide)]
    | ⟨1, _⟩ => show 0 = if (1 : Nat) = 1 then 0 else p.val; rw [if_pos rfl]
    | ⟨2, _⟩ => show q.val = if (1024 : Nat) = 1 then 0 else q.val; rw [if_neg (by decide)])

/-! ## The two stacked left operands -/

theorem lhsx_at0 (v0 : Vec Ideal S256x1024 .f32) (v3 : Vec Ideal S256x4096 .f32) (p : Fin 256) (k : Fin 1024) :
    k0_pay5 (F := Ideal) v0 v3 (ix3 (0 : Fin 4) p k) = v0 (ix2 p k) * v3 (ix2 p (LstmSpec.mcol 0 (by omega) k)) := by
  unfold k0_pay5 k0_pay4
  dsimp only
  rw [stackA0, shapeCast_ab_1ab_apply, mulf_apply, truncf_apply, slice2_axis1_apply 0 _ _ p k (LstmSpec.mcol 0 (by omega) k) rfl, truncf_apply]

theorem lhsx_at1 (v0 : Vec Ideal S256x1024 .f32) (v3 : Vec Ideal S256x4096 .f32) (p : Fin 256) (k : Fin 1024) :
    k0_pay5 (F := Ideal) v0 v3 (ix3 (1 : Fin 4) p k) = v0 (ix2 p k) * v3 (ix2 p (LstmSpec.mcol 1024 (by omega) k)) := by
  unfold k0_pay5 k0_pay4
  dsimp only
  rw [stackA1, shapeCast_ab_1ab_apply, mulf_apply, truncf_apply, slice2_axis1_apply 1024 _ _ p k (LstmSpec.mcol 1024 (by omega) k) rfl, truncf_apply]

theorem lhsx_at2 (v0 : Vec Ideal S256x1024 .f32) (v3 : Vec Ideal S256x4096 .f32) (p : Fin 256) (k : Fin 1024) :
    k0_pay5 (F := Ideal) v0 v3 (ix3 (2 : Fin 4) p k) = v0 (ix2 p k) * v3 (ix2 p (LstmSpec.mcol 2048 (by omega) k)) := by
  unfold k0_pay5 k0_pay4
  dsimp only
  rw [stackA2, shapeCast_ab_1ab_apply, mulf_apply, truncf_apply, slice2_axis1_apply 2048 _ _ p k (LstmSpec.mcol 2048 (by omega) k) rfl, truncf_apply]

theorem lhsx_at3 (v0 : Vec Ideal S256x1024 .f32) (v3 : Vec Ideal S256x4096 .f32) (p : Fin 256) (k : Fin 1024) :
    k0_pay5 (F := Ideal) v0 v3 (ix3 (3 : Fin 4) p k) = v0 (ix2 p k) * v3 (ix2 p (LstmSpec.mcol 3072 (by omega) k)) := by
  unfold k0_pay5 k0_pay4
  dsimp only
  rw [stackA3, shapeCast_ab_1ab_apply, mulf_apply, truncf_apply, slice2_axis1_apply 3072 _ _ p k (LstmSpec.mcol 3072 (by omega) k) rfl, truncf_apply]

theorem lhsh_at0 (v0 v1 : Vec Ideal S256x1024 .f32) (v4 : Vec Ideal S256x4096 .f32) (p : Fin 256) (k : Fin 1024) :
    k0_pay6 (F := Ideal) v0 v1 v4 (ix3 (0 : Fin 4) p k) = v1 (ix2 p k) * v4 (ix2 p (LstmSpec.mcol 0 (by omega) k)) := by
  unfold k0_pay6 k0_pay4
  dsimp only
  rw [stackA0, shapeCast_ab_1ab_apply, mulf_apply, truncf_apply, slice2_axis1_apply 0 _ _ p k (LstmSpec.mcol 0 (by omega) k) rfl, truncf_apply]

theorem lhsh_at1 (v0 v1 : Vec Ideal S256x1024 .f32) (v4 : Vec Ideal S256x4096 .f32) (p : Fin 256) (k : Fin 1024) :
    k0_pay6 (F := Ideal) v0 v1 v4 (ix3 (1 : Fin 4) p k) = v1 (ix2 p k) * v4 (ix2 p (LstmSpec.mcol 1024 (by omega) k)) := by
  unfold k0_pay6 k0_pay4
  dsimp only
  rw [stackA1, shapeCast_ab_1ab_apply, mulf_apply, truncf_apply, slice2_axis1_apply 1024 _ _ p k (LstmSpec.mcol 1024 (by omega) k) rfl, truncf_apply]

theorem lhsh_at2 (v0 v1 : Vec Ideal S256x1024 .f32) (v4 : Vec Ideal S256x4096 .f32) (p : Fin 256) (k : Fin 1024) :
    k0_pay6 (F := Ideal) v0 v1 v4 (ix3 (2 : Fin 4) p k) = v1 (ix2 p k) * v4 (ix2 p (LstmSpec.mcol 2048 (by omega) k)) := by
  unfold k0_pay6 k0_pay4
  dsimp only
  rw [stackA2, shapeCast_ab_1ab_apply, mulf_apply, truncf_apply, slice2_axis1_apply 2048 _ _ p k (LstmSpec.mcol 2048 (by omega) k) rfl, truncf_apply]

theorem lhsh_at3 (v0 v1 : Vec Ideal S256x1024 .f32) (v4 : Vec Ideal S256x4096 .f32) (p : Fin 256) (k : Fin 1024) :
    k0_pay6 (F := Ideal) v0 v1 v4 (ix3 (3 : Fin 4) p k) = v0 (ix2 p k) * v4 (ix2 p (LstmSpec.mcol 3072 (by omega) k)) := by
  unfold k0_pay6 k0_pay4
  dsimp only
  rw [stackA3, shapeCast_ab_1ab_apply, mulf_apply, truncf_apply, slice2_axis1_apply 3072 _ _ p k (LstmSpec.mcol 3072 (by omega) k) rfl, truncf_apply]

/-! ## The pre-activation tensor -/

theorem pre_at0 (v0 v1 : Vec Ideal S256x1024 .f32) (v3 v4 : Vec Ideal S256x4096 .f32) (v35 v37 : Vec Ideal S4x1024x1024 .bf16) (v39 : Vec Ideal S4x1x1024 .f32) (p : Fin 256) (q : Fin 1024) :
    k0_pay1 (F := Ideal) (k0_pay5 v0 v3) (k0_pay6 v0 v1 v4) (k0_pay7 v35) (k0_pay8 v37) v39 (ix3 (0 : Fin 4) p q)
      = blkPre v0 v1 v3 v4 0 (by omega) v35 v37 v39 0 p q := by
  unfold k0_pay1 k0_pay7 k0_pay8 blkPre blkLin
  dsimp only
  rw [addf_apply, addf_apply, prod_at, prod_at, bias_at, shapeCast_self, shapeCast_self, shapeCast_self]
  refine congrArg₂ (· + ·) (congrArg₂ (· + ·) (Finset.sum_congr rfl fun k _ => ?_) rfl) (Finset.sum_congr rfl fun k _ => ?_)
  · rw [lhsx_at0]
  · rw [lhsh_at0]

theorem pre_at1 (v0 v1 : Vec Ideal S256x1024 .f32) (v3 v4 : Vec Ideal S256x4096 .f32) (v35 v37 : Vec Ideal S4x1024x1024 .bf16) (v39 : Vec Ideal S4x1x1024 .f32) (p : Fin 256) (q : Fin 1024) :
    k0_pay1 (F := Ideal) (k0_pay5 v0 v3) (k0_pay6 v0 v1 v4) (k0_pay7 v35) (k0_pay8 v37) v39 (ix3 (1 : Fin 4) p q)
      = blkPre v0 v1 v3 v4 1024 (by omega) v35 v37 v39 1 p q := by
  unfold k0_pay1 k0_pay7 k0_pay8 blkPre blkLin
  dsimp only
  rw [addf_apply, addf_apply, prod_at, prod_at, bias_at, shapeCast_self, shapeCast_self, shapeCast_self]
  refine congrArg₂ (· + ·) (congrArg₂ (· + ·) (Finset.sum_congr rfl fun k _ => ?_) rfl) (Finset.sum_congr rfl fun k _ => ?_)
  · rw [lhsx_at1]
  · rw [lhsh_at1]

theorem pre_at2 (v0 v1 : Vec Ideal S256x1024 .f32) (v3 v4 : Vec Ideal S256x4096 .f32) (v35 v37 : Vec Ideal S4x1024x1024 .bf16) (v39 : Vec Ideal S4x1x1024 .f32) (p : Fin 256) (q : Fin 1024) :
    k0_pay1 (F := Ideal) (k0_pay5 v0 v3) (k0_pay6 v0 v1 v4) (k0_pay7 v35) (k0_pay8 v37) v39 (ix3 (2 : Fin 4) p q)
      = blkPre v0 v1 v3 v4 2048 (by omega) v35 v37 v39 2 p q := by
  unfold k0_pay1 k0_pay7 k0_pay8 blkPre blkLin
  dsimp only
  rw [addf_apply, addf_apply, prod_at, prod_at, bias_at, shapeCast_self, shapeCast_self, shapeCast_self]
  refine congrArg₂ (· + ·) (congrArg₂ (· + ·) (Finset.sum_congr rfl fun k _ => ?_) rfl) (Finset.sum_congr rfl fun k _ => ?_)
  · rw [lhsx_at2]
  · rw [lhsh_at2]

theorem pre_at3 (v0 v1 : Vec Ideal S256x1024 .f32) (v3 v4 : Vec Ideal S256x4096 .f32) (v35 v37 : Vec Ideal S4x1024x1024 .bf16) (v39 : Vec Ideal S4x1x1024 .f32) (p : Fin 256) (q : Fin 1024) :
    k0_pay1 (F := Ideal) (k0_pay5 v0 v3) (k0_pay6 v0 v1 v4) (k0_pay7 v35) (k0_pay8 v37) v39 (ix3 (3 : Fin 4) p q)
      = blkPre v0 v0 v3 v4 3072 (by omega) v35 v37 v39 3 p q := by
  unfold k0_pay1 k0_pay7 k0_pay8 blkPre blkLin
  dsimp only
  rw [addf_apply, addf_apply, prod_at, prod_at, bias_at, shapeCast_self, shapeCast_self, shapeCast_self]
  refine congrArg₂ (· + ·) (congrArg₂ (· + ·) (Finset.sum_congr rfl fun k _ => ?_) rfl) (Finset.sum_congr rfl fun k _ => ?_)
  · rw [lhsx_at3]
  · rw [lhsh_at3]

/-! ## A gate's slab cut out of the stacked tensor -/

theorem slab0 (X : FVec Ideal S4x256x1024 .f32) (hs : S4x256x1024.Slices ![0, 0, 0] S1x256x1024) (hc : S1x256x1024.ShapeCasts S256x1024)
    (p : Fin 256) (q : Fin 1024) :
    shapeCast S256x1024 (extractStridedSlice S1x256x1024 ![0, 0, 0] X hs) hc (ix2 p q) = X (ix3 (0 : Fin 4) p q) := by
  rw [shapeCast_1ab_ab_apply]
  exact extractStridedSlice_apply _ X hs _ _ (fun a => by
    match a with
    | ⟨0, _⟩ => rfl
    | ⟨1, _⟩ => exact (Nat.zero_add _).symm
    | ⟨2, _⟩ => exact (Nat.zero_add _).symm)
theorem slab1 (X : FVec Ideal S4x256x1024 .f32) (hs : S4x256x1024.Slices ![1, 0, 0] S1x256x1024) (hc : S1x256x1024.ShapeCasts S256x1024)
    (p : Fin 256) (q : Fin 1024) :
    shapeCast S256x1024 (extractStridedSlice S1x256x1024 ![1, 0, 0] X hs) hc (ix2 p q) = X (ix3 (1 : Fin 4) p q) := by
  rw [shapeCast_1ab_ab_apply]
  exact extractStridedSlice_apply _ X hs _ _ (fun a => by
    match a with
    | ⟨0, _⟩ => rfl
    | ⟨1, _⟩ => exact (Nat.zero_add _).symm
    | ⟨2, _⟩ => exact (Nat.zero_add _).symm)
theorem slab2 (X : FVec Ideal S4x256x1024 .f32) (hs : S4x256x1024.Slices ![2, 0, 0] S1x256x1024) (hc : S1x256x1024.ShapeCasts S256x1024)
    (p : Fin 256) (q : Fin 1024) :
    shapeCast S256x1024 (extractStridedSlice S1x256x1024 ![2, 0, 0] X hs) hc (ix2 p q) = X (ix3 (2 : Fin 4) p q) := by
  rw [shapeCast_1ab_ab_apply]
  exact extractStridedSlice_apply _ X hs _ _ (fun a => by
    match a with
    | ⟨0, _⟩ => rfl
    | ⟨1, _⟩ => exact (Nat.zero_add _).symm
    | ⟨2, _⟩ => exact (Nat.zero_add _).symm)
theorem slab3 (X : FVec Ideal S4x256x1024 .f32) (hs : S4x256x1024.Slices ![3, 0, 0] S1x256x1024) (hc : S1x256x1024.ShapeCasts S256x1024)
    (p : Fin 256) (q : Fin 1024) :
    shapeCast S256x1024 (extractStridedSlice S1x256x1024 ![3, 0, 0] X hs) hc (ix2 p q) = X (ix3 (3 : Fin 4) p q) := by
  rw [shapeCast_1ab_ab_apply]
  exact extractStridedSlice_apply _ X hs _ _ (fun a => by
    match a with
    | ⟨0, _⟩ => rfl
    | ⟨1, _⟩ => exact (Nat.zero_add _).symm
    | ⟨2, _⟩ => exact (Nat.zero_add _).symm)

/-! ## The two stored blocks at an entry -/

theorem cell_at (v0 v1 v2 : Vec Ideal S256x1024 .f32) (v3 v4 : Vec Ideal S256x4096 .f32) (v35 v37 : Vec Ideal S4x1024x1024 .bf16) (v39 : Vec Ideal S4x1x1024 .f32)
    (p : Fin 256) (q : Fin 1024) :
    k0_pay2 (F := Ideal) v2 (k0_pay5 v0 v3) (k0_pay6 v0 v1 v4) (k0_pay7 v35) (k0_pay8 v37) v39 (ix2 p q)
      = Ideal.logistic (blkPre v0 v1 v3 v4 0 (by omega) v35 v37 v39 0 p q) * v2 (ix2 p q)
        + Ideal.logistic (blkPre v0 v1 v3 v4 1024 (by omega) v35 v37 v39 1 p q) * Ideal.tanh (blkPre v0 v0 v3 v4 3072 (by omega) v35 v37 v39 3 p q) := by
  unfold k0_pay2
  rw [addf_apply, mulf_apply, mulf_apply, logistic_at, logistic_at, tanh_at, slab0, slab1, slab3, pre_at0, pre_at1, pre_at3]

theorem hid_at (v0 v1 v2 : Vec Ideal S256x1024 .f32) (v3 v4 : Vec Ideal S256x4096 .f32) (v35 v37 : Vec Ideal S4x1024x1024 .bf16) (v39 : Vec Ideal S4x1x1024 .f32)
    (p : Fin 256) (q : Fin 1024) :
    k0_pay3 (F := Ideal) v2 (k0_pay5 v0 v3) (k0_pay6 v0 v1 v4) (k0_pay7 v35) (k0_pay8 v37) v39 (ix2 p q)
      = Ideal.logistic (blkPre v0 v1 v3 v4 2048 (by omega) v35 v37 v39 2 p q)
        * Ideal.tanh (Ideal.logistic (blkPre v0 v1 v3 v4 0 (by omega) v35 v37 v39 0 p q) * v2 (ix2 p q)
            + Ideal.logistic (blkPre v0 v1 v3 v4 1024 (by omega) v35 v37 v39 1 p q) * Ideal.tanh (blkPre v0 v0 v3 v4 3072 (by omega) v35 v37 v39 3 p q)) := by
  unfold k0_pay3
  rw [mulf_apply, logistic_at, tanh_at, slab2, pre_at2, cell_at]

/-! ## The two stored blocks as functions of the loaded blocks -/

/-- The new cell state's block at `(p, q)`. -/
def cellBlk (v0 v1 v2 : Vec Ideal S256x1024 .f32) (v3 v4 : Vec Ideal S256x4096 .f32) (v35 v37 : Vec Ideal S4x1024x1024 .bf16) (v39 : Vec Ideal S4x1x1024 .f32) (p : Fin 256) (q : Fin 1024) : EReal :=
  Ideal.logistic (blkPre v0 v1 v3 v4 0 (by omega) v35 v37 v39 0 p q) * v2 (ix2 p q)
    + Ideal.logistic (blkPre v0 v1 v3 v4 1024 (by omega) v35 v37 v39 1 p q) * Ideal.tanh (blkPre v0 v0 v3 v4 3072 (by omega) v35 v37 v39 3 p q)

/-- The new hidden state's block at `(p, q)`. -/
def hidBlk (v0 v1 v2 : Vec Ideal S256x1024 .f32) (v3 v4 : Vec Ideal S256x4096 .f32) (v35 v37 : Vec Ideal S4x1024x1024 .bf16) (v39 : Vec Ideal S4x1x1024 .f32) (p : Fin 256) (q : Fin 1024) : EReal :=
  Ideal.logistic (blkPre v0 v1 v3 v4 2048 (by omega) v35 v37 v39 2 p q) * Ideal.tanh (cellBlk v0 v1 v2 v3 v4 v35 v37 v39 p q)

theorem cell_blk (v0 v1 v2 : Vec Ideal S256x1024 .f32) (v3 v4 : Vec Ideal S256x4096 .f32) (v35 v37 : Vec Ideal S4x1024x1024 .bf16) (v39 : Vec Ideal S4x1x1024 .f32) (y : S256x1024.Idx) :
    k0_pay2 (F := Ideal) v2 (k0_pay5 v0 v3) (k0_pay6 v0 v1 v4) (k0_pay7 v35) (k0_pay8 v37) v39 y = cellBlk v0 v1 v2 v3 v4 v35 v37 v39 (y 0) (y 1) :=
  (congrArg (k0_pay2 (F := Ideal) v2 (k0_pay5 v0 v3) (k0_pay6 v0 v1 v4) (k0_pay7 v35) (k0_pay8 v37) v39) (eq_ix2 y)).trans (cell_at v0 v1 v2 v3 v4 v35 v37 v39 (y 0) (y 1))

theorem hid_blk (v0 v1 v2 : Vec Ideal S256x1024 .f32) (v3 v4 : Vec Ideal S256x4096 .f32) (v35 v37 : Vec Ideal S4x1024x1024 .bf16) (v39 : Vec Ideal S4x1x1024 .f32) (y : S256x1024.Idx) :
    k0_pay3 (F := Ideal) v2 (k0_pay5 v0 v3) (k0_pay6 v0 v1 v4) (k0_pay7 v35) (k0_pay8 v37) v39 y = hidBlk v0 v1 v2 v3 v4 v35 v37 v39 (y 0) (y 1) :=
  (congrArg (k0_pay3 (F := Ideal) v2 (k0_pay5 v0 v3) (k0_pay6 v0 v1 v4) (k0_pay7 v35) (k0_pay8 v37) v39) (eq_ix2 y)).trans (hid_at v0 v1 v2 v3 v4 v35 v37 v39 (y 0) (y 1))

/-! ## From blocks to rows of the arrays

  When each loaded block is the rows `row p` of its array (the masks' and the operands' blocks), the stacked weights'
  slabs are the weight matrices in the order forget, input, output, candidate, and the stacked bias's rows are the
  bias vectors in that order, the block-level terms are the specification's at row `row p`. -/

theorem blocks_are_rows (row : Fin 256 → Fin 8192) (v0 v1 v2 : Vec Ideal S256x1024 .f32) (v3 v4 : Vec Ideal S256x4096 .f32) (v35 v37 : Vec Ideal S4x1024x1024 .bf16) (v39 : Vec Ideal S4x1x1024 .f32)
    (x hx cx : FVec Ideal ⟨2, ![8192, 1024]⟩ .f32) (mx mh : FVec Ideal ⟨2, ![8192, 4096]⟩ .f32)
    (Wxi Wxf Wxc Wxo Whi Whf Whc Who : FVec Ideal ⟨2, ![1024, 1024]⟩ .f32) (bi bf bc bo : FVec Ideal ⟨1, ![1024]⟩ .f32)
    (e0 : ∀ p k, v0 (ix2 p k) = x (ix2 (row p) k)) (e1 : ∀ p k, v1 (ix2 p k) = hx (ix2 (row p) k)) (e2 : ∀ p k, v2 (ix2 p k) = cx (ix2 (row p) k))
    (e3 : ∀ p (j : Fin 4096), v3 (ix2 p j) = mx (ix2 (row p) j)) (e4 : ∀ p (j : Fin 4096), v4 (ix2 p j) = mh (ix2 (row p) j))
    (e50 : ∀ q k, v35 (ix3 (0 : Fin 4) q k) = Wxf (ix2 q k)) (e51 : ∀ q k, v35 (ix3 (1 : Fin 4) q k) = Wxi (ix2 q k))
    (e52 : ∀ q k, v35 (ix3 (2 : Fin 4) q k) = Wxo (ix2 q k)) (e53 : ∀ q k, v35 (ix3 (3 : Fin 4) q k) = Wxc (ix2 q k))
    (e60 : ∀ q k, v37 (ix3 (0 : Fin 4) q k) = Whf (ix2 q k)) (e61 : ∀ q k, v37 (ix3 (1 : Fin 4) q k) = Whi (ix2 q k))
    (e62 : ∀ q k, v37 (ix3 (2 : Fin 4) q k) = Who (ix2 q k)) (e63 : ∀ q k, v37 (ix3 (3 : Fin 4) q k) = Whc (ix2 q k))
    (e70 : ∀ q, v39 (ix3 (0 : Fin 4) (0 : Fin 1) q) = bf (ix1 q)) (e71 : ∀ q, v39 (ix3 (1 : Fin 4) (0 : Fin 1) q) = bi (ix1 q))
    (e72 : ∀ q, v39 (ix3 (2 : Fin 4) (0 : Fin 1) q) = bo (ix1 q)) (e73 : ∀ q, v39 (ix3 (3 : Fin 4) (0 : Fin 1) q) = bc (ix1 q))
    (p : Fin 256) (q : Fin 1024) :
    cellBlk v0 v1 v2 v3 v4 v35 v37 v39 p q = LstmSpec.cellNew x hx cx mx mh Wxi Wxf Wxc Wxo Whi Whf Whc Who bi bf bc bo (row p) q
      ∧ hidBlk v0 v1 v2 v3 v4 v35 v37 v39 p q = LstmSpec.hidNew x hx cx mx mh Wxi Wxf Wxc Wxo Whi Whf Whc Who bi bf bc bo (row p) q := by
  have hc : cellBlk v0 v1 v2 v3 v4 v35 v37 v39 p q = LstmSpec.cellNew x hx cx mx mh Wxi Wxf Wxc Wxo Whi Whf Whc Who bi bf bc bo (row p) q := by
    unfold cellBlk LstmSpec.cellNew blkPre LstmSpec.pre blkLin LstmSpec.lin
    simp only [e0, e1, e2, e3, e4, e50, e51, e53, e60, e61, e63, e70, e71, e73]
  refine ⟨hc, ?_⟩
  unfold hidBlk LstmSpec.hidNew
  rw [hc]
  unfold blkPre LstmSpec.pre blkLin LstmSpec.lin
  simp only [e0, e1, e3, e4, e52, e62, e72]

end Cert.LstmBody

end
-- ==== Proof.LstmArray.lean ====
/-
  From blocks to arrays, for the idealized kernel. The grid has 32 points; point `t` works on rows 256·t … 256·t+255.
  Every row-blocked window (the three operands, the two masks, the two results) has block index (t, 0); the stacked
  weights and the stacked bias are one block, index (0, 0, 0), at every point. So a loaded operand or mask block is rows
  256·t+p of its argument array, the stacked weights' slab `g` is the weight matrix of gate `g` in the order forget,
  input, output, candidate (the host stacked them so, then cast), and the stacked bias's row `g` is that gate's bias.
  What point `t` writes back is therefore block `t` of the specification's array, and the 32 blocks tile the 8192 rows.
-/
import proofs.«147330_j35476429865299_2_alg».proof.Proof.KernelIdealFrame
import proofs.«147330_j35476429865299_2_alg».proof.Proof.LstmBody
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.LstmKernel

open Idealize.ShloMosaic Idealize.ShloMosaic.TcCoe Idealize.ShloMosaic.ValueIdx Idealize.ShloMosaic.StableHlo
open Idealize.SL Idealize.SL.Sem
open Idealize.ShloMosaic.Pipeline (Dat)
open Cert.KernelIdeal Cert.KernelIdeal.Gen

variable (m : (ℓ : Loc nD τ sig) → Buf (Elt Ideal) ℓ) (ρ : Dev nD → PrngReg)

/-! ## The host's stacks -/

theorem stackW0 (y0 y1 y2 y3 : FVec Ideal S1x1024x1024 .f32) (h : Shape.Concatenates (([⟨S1x1024x1024, y0⟩, ⟨S1x1024x1024, y1⟩, ⟨S1x1024x1024, y2⟩, ⟨S1x1024x1024, y3⟩] : List ((s : Shape) × (s.Idx → Ideal .f32))).map (·.1)) S4x1024x1024 0)
    (p : Fin 1024) (k : Fin 1024) :
    concatenate S4x1024x1024 0 [⟨S1x1024x1024, y0⟩, ⟨S1x1024x1024, y1⟩, ⟨S1x1024x1024, y2⟩, ⟨S1x1024x1024, y3⟩] h (ix3 (0 : Fin 4) p k) = y0 (ix3 (0 : Fin 1) p k) :=
  concatenate_apply_piece (0 : Fin 3) [⟨S1x1024x1024, y0⟩, ⟨S1x1024x1024, y1⟩, ⟨S1x1024x1024, y2⟩, ⟨S1x1024x1024, y3⟩] h (ix3 (0 : Fin 4) p k) 0 (by simp) S1x1024x1024 y0 rfl rfl 0 rfl (ix3 (0 : Fin 1) p k)
    (fun b hb => by match b with | ⟨0, _⟩ => exact absurd rfl hb | ⟨1, _⟩ => rfl | ⟨2, _⟩ => rfl) rfl
theorem stackW1 (y0 y1 y2 y3 : FVec Ideal S1x1024x1024 .f32) (h : Shape.Concatenates (([⟨S1x1024x1024, y0⟩, ⟨S1x1024x1024, y1⟩, ⟨S1x1024x1024, y2⟩, ⟨S1x1024x1024, y3⟩] : List ((s : Shape) × (s.Idx → Ideal .f32))).map (·.1)) S4x1024x1024 0)
    (p : Fin 1024) (k : Fin 1024) :
    concatenate S4x1024x1024 0 [⟨S1x1024x1024, y0⟩, ⟨S1x1024x1024, y1⟩, ⟨S1x1024x1024, y2⟩, ⟨S1x1024x1024, y3⟩] h (ix3 (1 : Fin 4) p k) = y1 (ix3 (0 : Fin 1) p k) :=
  concatenate_apply_piece (0 : Fin 3) [⟨S1x1024x1024, y0⟩, ⟨S1x1024x1024, y1⟩, ⟨S1x1024x1024, y2⟩, ⟨S1x1024x1024, y3⟩] h (ix3 (1 : Fin 4) p k) 1 (by simp) S1x1024x1024 y1 rfl rfl 1 rfl (ix3 (0 : Fin 1) p k)
    (fun b hb => by match b with | ⟨0, _⟩ => exact absurd rfl hb | ⟨1, _⟩ => rfl | ⟨2, _⟩ => rfl) rfl
theorem stackW2 (y0 y1 y2 y3 : FVec Ideal S1x1024x1024 .f32) (h : Shape.Concatenates (([⟨S1x1024x1024, y0⟩, ⟨S1x1024x1024, y1⟩, ⟨S1x1024x1024, y2⟩, ⟨S1x1024x1024, y3⟩] : List ((s : Shape) × (s.Idx → Ideal .f32))).map (·.1)) S4x1024x1024 0)
    (p : Fin 1024) (k : Fin 1024) :
    concatenate S4x1024x1024 0 [⟨S1x1024x1024, y0⟩, ⟨S1x1024x1024, y1⟩, ⟨S1x1024x1024, y2⟩, ⟨S1x1024x1024, y3⟩] h (ix3 (2 : Fin 4) p k) = y2 (ix3 (0 : Fin 1) p k) :=
  concatenate_apply_piece (0 : Fin 3) [⟨S1x1024x1024, y0⟩, ⟨S1x1024x1024, y1⟩, ⟨S1x1024x1024, y2⟩, ⟨S1x1024x1024, y3⟩] h (ix3 (2 : Fin 4) p k) 2 (by simp) S1x1024x1024 y2 rfl rfl 2 rfl (ix3 (0 : Fin 1) p k)
    (fun b hb => by match b with | ⟨0, _⟩ => exact absurd rfl hb | ⟨1, _⟩ => rfl | ⟨2, _⟩ => rfl) rfl
theorem stackW3 (y0 y1 y2 y3 : FVec Ideal S1x1024x1024 .f32) (h : Shape.Concatenates (([⟨S1x1024x1024, y0⟩, ⟨S1x1024x1024, y1⟩, ⟨S1x1024x1024, y2⟩, ⟨S1x1024x1024, y3⟩] : List ((s : Shape) × (s.Idx → Ideal .f32))).map (·.1)) S4x1024x1024 0)
    (p : Fin 1024) (k : Fin 1024) :
    concatenate S4x1024x1024 0 [⟨S1x1024x1024, y0⟩, ⟨S1x1024x1024, y1⟩, ⟨S1x1024x1024, y2⟩, ⟨S1x1024x1024, y3⟩] h (ix3 (3 : Fin 4) p k) = y3 (ix3 (0 : Fin 1) p k) :=
  concatenate_apply_piece (0 : Fin 3) [⟨S1x1024x1024, y0⟩, ⟨S1x1024x1024, y1⟩, ⟨S1x1024x1024, y2⟩, ⟨S1x1024x1024, y3⟩] h (ix3 (3 : Fin 4) p k) 3 (by simp) S1x1024x1024 y3 rfl rfl 3 rfl (ix3 (0 : Fin 1) p k)
    (fun b hb => by match b with | ⟨0, _⟩ => exact absurd rfl hb | ⟨1, _⟩ => rfl | ⟨2, _⟩ => rfl) rfl

theorem stackB0 (y0 y1 y2 y3 : FVec Ideal S1x1024 .f32) (h : Shape.Concatenates (([⟨S1x1024, y0⟩, ⟨S1x1024, y1⟩, ⟨S1x1024, y2⟩, ⟨S1x1024, y3⟩] : List ((s : Shape) × (s.Idx → Ideal .f32))).map (·.1)) S4x1024 0)
    (q : Fin 1024) :
    concatenate S4x1024 0 [⟨S1x1024, y0⟩, ⟨S1x1024, y1⟩, ⟨S1x1024, y2⟩, ⟨S1x1024, y3⟩] h (ix2 (0 : Fin 4) q) = y0 (ix2 (0 : Fin 1) q) :=
  concatenate_apply_piece (0 : Fin 2) [⟨S1x1024, y0⟩, ⟨S1x1024, y1⟩, ⟨S1x1024, y2⟩, ⟨S1x1024, y3⟩] h (ix2 (0 : Fin 4) q) 0 (by simp) S1x1024 y0 rfl rfl 0 rfl (ix2 (0 : Fin 1) q)
    (fun b hb => by match b with | ⟨0, _⟩ => exact absurd rfl hb | ⟨1, _⟩ => rfl) rfl
theorem stackB1 (y0 y1 y2 y3 : FVec Ideal S1x1024 .f32) (h : Shape.Concatenates (([⟨S1x1024, y0⟩, ⟨S1x1024, y1⟩, ⟨S1x1024, y2⟩, ⟨S1x1024, y3⟩] : List ((s : Shape) × (s.Idx → Ideal .f32))).map (·.1)) S4x1024 0)
    (q : Fin 1024) :
    concatenate S4x1024 0 [⟨S1x1024, y0⟩, ⟨S1x1024, y1⟩, ⟨S1x1024, y2⟩, ⟨S1x1024, y3⟩] h (ix2 (1 : Fin 4) q) = y1 (ix2 (0 : Fin 1) q) :=
  concatenate_apply_piece (0 : Fin 2) [⟨S1x1024, y0⟩, ⟨S1x1024, y1⟩, ⟨S1x1024, y2⟩, ⟨S1x1024, y3⟩] h (ix2 (1 : Fin 4) q) 1 (by simp) S1x1024 y1 rfl rfl 1 rfl (ix2 (0 : Fin 1) q)
    (fun b hb => by match b with | ⟨0, _⟩ => exact absurd rfl hb | ⟨1, _⟩ => rfl) rfl
theorem stackB2 (y0 y1 y2 y3 : FVec Ideal S1x1024 .f32) (h : Shape.Concatenates (([⟨S1x1024, y0⟩, ⟨S1x1024, y1⟩, ⟨S1x1024, y2⟩, ⟨S1x1024, y3⟩] : List ((s : Shape) × (s.Idx → Ideal .f32))).map (·.1)) S4x1024 0)
    (q : Fin 1024) :
    concatenate S4x1024 0 [⟨S1x1024, y0⟩, ⟨S1x1024, y1⟩, ⟨S1x1024, y2⟩, ⟨S1x1024, y3⟩] h (ix2 (2 : Fin 4) q) = y2 (ix2 (0 : Fin 1) q) :=
  concatenate_apply_piece (0 : Fin 2) [⟨S1x1024, y0⟩, ⟨S1x1024, y1⟩, ⟨S1x1024, y2⟩, ⟨S1x1024, y3⟩] h (ix2 (2 : Fin 4) q) 2 (by simp) S1x1024 y2 rfl rfl 2 rfl (ix2 (0 : Fin 1) q)
    (fun b hb => by match b with | ⟨0, _⟩ => exact absurd rfl hb | ⟨1, _⟩ => rfl) rfl
theorem stackB3 (y0 y1 y2 y3 : FVec Ideal S1x1024 .f32) (h : Shape.Concatenates (([⟨S1x1024, y0⟩, ⟨S1x1024, y1⟩, ⟨S1x1024, y2⟩, ⟨S1x1024, y3⟩] : List ((s : Shape) × (s.Idx → Ideal .f32))).map (·.1)) S4x1024 0)
    (q : Fin 1024) :
    concatenate S4x1024 0 [⟨S1x1024, y0⟩, ⟨S1x1024, y1⟩, ⟨S1x1024, y2⟩, ⟨S1x1024, y3⟩] h (ix2 (3 : Fin 4) q) = y3 (ix2 (0 : Fin 1) q) :=
  concatenate_apply_piece (0 : Fin 2) [⟨S1x1024, y0⟩, ⟨S1x1024, y1⟩, ⟨S1x1024, y2⟩, ⟨S1x1024, y3⟩] h (ix2 (3 : Fin 4) q) 3 (by simp) S1x1024 y3 rfl rfl 3 rfl (ix2 (0 : Fin 1) q)
    (fun b hb => by match b with | ⟨0, _⟩ => exact absurd rfl hb | ⟨1, _⟩ => rfl) rfl

/-- A matrix given a new leading unit axis. -/
theorem lead_w (a : FVec Ideal S1024x1024 .f32) (h : S1024x1024.BroadcastsInDim S1x1024x1024 (![1, 2] : Fin 2 → Fin S1x1024x1024.rank)) (q k : Fin 1024) :
    broadcastInDim S1x1024x1024 ![1, 2] h a (ix3 (0 : Fin 1) q k) = a (ix2 q k) :=
  broadcastInDim_apply _ h a _ (ix2 q k) (fun ax => by
    match ax with
    | ⟨0, _⟩ => show q.val = if (1024 : Nat) = 1 then 0 else q.val; rw [if_neg (by decide)]
    | ⟨1, _⟩ => show k.val = if (1024 : Nat) = 1 then 0 else k.val; rw [if_neg (by decide)])

/-- A vector given a new leading unit axis. -/
theorem lead_b (a : FVec Ideal S1024 .f32) (h : S1024.BroadcastsInDim S1x1024 (![1] : Fin 1 → Fin S1x1024.rank)) (q : Fin 1024) :
    broadcastInDim S1x1024 ![1] h a (ix2 (0 : Fin 1) q) = a (ix1 q) :=
  broadcastInDim_apply _ h a _ (ix1 q) (fun ax => by
    match ax with
    | ⟨0, _⟩ => show q.val = if (1024 : Nat) = 1 then 0 else q.val; rw [if_neg (by decide)])

/-- Four weight matrices stacked along a new leading gate axis, then cast. -/
def wstack (a b c d : FVec Ideal S1024x1024 .f32) : FVec Ideal S4x1024x1024 .bf16 :=
  truncf .bf16 (concatenate S4x1024x1024 0 [⟨S1x1024x1024, broadcastInDim S1x1024x1024 ![1, 2] bcast_S1024x1024_S1x1024x1024_1_2 a⟩, ⟨S1x1024x1024, broadcastInDim S1x1024x1024 ![1, 2] bcast_S1024x1024_S1x1024x1024_1_2 b⟩, ⟨S1x1024x1024, broadcastInDim S1x1024x1024 ![1, 2] bcast_S1024x1024_S1x1024x1024_1_2 c⟩, ⟨S1x1024x1024, broadcastInDim S1x1024x1024 ![1, 2] bcast_S1024x1024_S1x1024x1024_1_2 d⟩] concatenates_S1x1024x1024_S1x1024x1024_S1x1024x1024_S1x1024x1024_S4x1024x1024_d0) bitsLt_bf16_f32

theorem wstack_at0 (y0 y1 y2 y3 : FVec Ideal S1024x1024 .f32) (q k : Fin 1024) : wstack y0 y1 y2 y3 (ix3 (0 : Fin 4) q k) = y0 (ix2 q k) := by
  unfold wstack; rw [truncf_apply, stackW0, lead_w]
theorem wstack_at1 (y0 y1 y2 y3 : FVec Ideal S1024x1024 .f32) (q k : Fin 1024) : wstack y0 y1 y2 y3 (ix3 (1 : Fin 4) q k) = y1 (ix2 q k) := by
  unfold wstack; rw [truncf_apply, stackW1, lead_w]
theorem wstack_at2 (y0 y1 y2 y3 : FVec Ideal S1024x1024 .f32) (q k : Fin 1024) : wstack y0 y1 y2 y3 (ix3 (2 : Fin 4) q k) = y2 (ix2 q k) := by
  unfold wstack; rw [truncf_apply, stackW2, lead_w]
theorem wstack_at3 (y0 y1 y2 y3 : FVec Ideal S1024x1024 .f32) (q k : Fin 1024) : wstack y0 y1 y2 y3 (ix3 (3 : Fin 4) q k) = y3 (ix2 q k) := by
  unfold wstack; rw [truncf_apply, stackW3, lead_w]

/-- Four bias vectors stacked along a new leading gate axis, then given a unit middle axis. -/
def bstack (a b c d : FVec Ideal S1024 .f32) : FVec Ideal S4x1x1024 .f32 :=
  shapeCast S4x1x1024 (concatenate S4x1024 0 [⟨S1x1024, broadcastInDim S1x1024 ![1] bcast_S1024_S1x1024_1 a⟩, ⟨S1x1024, broadcastInDim S1x1024 ![1] bcast_S1024_S1x1024_1 b⟩, ⟨S1x1024, broadcastInDim S1x1024 ![1] bcast_S1024_S1x1024_1 c⟩, ⟨S1x1024, broadcastInDim S1x1024 ![1] bcast_S1024_S1x1024_1 d⟩] concatenates_S1x1024_S1x1024_S1x1024_S1x1024_S4x1024_d0) shapeCasts_S4x1024_S4x1x1024

theorem bstack_at0 (y0 y1 y2 y3 : FVec Ideal S1024 .f32) (q : Fin 1024) : bstack y0 y1 y2 y3 (ix3 (0 : Fin 4) (0 : Fin 1) q) = y0 (ix1 q) := by
  unfold bstack
  rw [shapeCast_apply _ _ _ (ix2 (0 : Fin 4) q) (by
    rw [Shape.rowMajor_val_two, Shape.rowMajor_val_three]
    show 0 * 1024 + q.val = (0 * 1 + 0) * 1024 + q.val
    omega), stackB0, lead_b]
theorem bstack_at1 (y0 y1 y2 y3 : FVec Ideal S1024 .f32) (q : Fin 1024) : bstack y0 y1 y2 y3 (ix3 (1 : Fin 4) (0 : Fin 1) q) = y1 (ix1 q) := by
  unfold bstack
  rw [shapeCast_apply _ _ _ (ix2 (1 : Fin 4) q) (by
    rw [Shape.rowMajor_val_two, Shape.rowMajor_val_three]
    show 1 * 1024 + q.val = (1 * 1 + 0) * 1024 + q.val
    omega), stackB1, lead_b]
theorem bstack_at2 (y0 y1 y2 y3 : FVec Ideal S1024 .f32) (q : Fin 1024) : bstack y0 y1 y2 y3 (ix3 (2 : Fin 4) (0 : Fin 1) q) = y2 (ix1 q) := by
  unfold bstack
  rw [shapeCast_apply _ _ _ (ix2 (2 : Fin 4) q) (by
    rw [Shape.rowMajor_val_two, Shape.rowMajor_val_three]
    show 2 * 1024 + q.val = (2 * 1 + 0) * 1024 + q.val
    omega), stackB2, lead_b]
theorem bstack_at3 (y0 y1 y2 y3 : FVec Ideal S1024 .f32) (q : Fin 1024) : bstack y0 y1 y2 y3 (ix3 (3 : Fin 4) (0 : Fin 1) q) = y3 (ix1 q) := by
  unfold bstack
  rw [shapeCast_apply _ _ _ (ix2 (3 : Fin 4) q) (by
    rw [Shape.rowMajor_val_two, Shape.rowMajor_val_three]
    show 3 * 1024 + q.val = (3 * 1 + 0) * 1024 + q.val
    omega), stackB3, lead_b]

/-- The stacked x-path weights, h-path weights and bias as the region finds them. -/
theorem entry_wx (c : Dev nD) : (Frm.entry m c main_v5 : S4x1024x1024.Idx → EReal) = wstack (m ((c : Thread nD τ).loc main_arg6)) (m ((c : Thread nD τ).loc main_arg5)) (m ((c : Thread nD τ).loc main_arg8)) (m ((c : Thread nD τ).loc main_arg7)) := by
  dsimp only [Frm.entry, hostOps0]; after_results; rfl
theorem entry_wh (c : Dev nD) : (Frm.entry m c main_v11 : S4x1024x1024.Idx → EReal) = wstack (m ((c : Thread nD τ).loc main_arg10)) (m ((c : Thread nD τ).loc main_arg9)) (m ((c : Thread nD τ).loc main_arg12)) (m ((c : Thread nD τ).loc main_arg11)) := by
  dsimp only [Frm.entry, hostOps0]; after_results; rfl
theorem entry_b (c : Dev nD) : (Frm.entry m c main_v17 : S4x1x1024.Idx → EReal) = bstack (m ((c : Thread nD τ).loc main_arg14)) (m ((c : Thread nD τ).loc main_arg13)) (m ((c : Thread nD τ).loc main_arg16)) (m ((c : Thread nD τ).loc main_arg15)) := by
  dsimp only [Frm.entry, hostOps0]; after_results; rfl

/-! ## The index maps over the grid -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows3 : ∀ t : Fin cfg0.N, win0_3.index t (0 : Fin 2) = t.val ∧ win0_3.index t (1 : Fin 2) = 0 :=
  (by decide +kernel : ∀ t : Fin grid0.N, _)
theorem idx_rows4 : ∀ t : Fin cfg0.N, win0_4.index t (0 : Fin 2) = t.val ∧ win0_4.index t (1 : Fin 2) = 0 :=
  (by decide +kernel : ∀ t : Fin grid0.N, _)
theorem idx_rows8 : ∀ t : Fin cfg0.N, win0_8.index t (0 : Fin 2) = t.val ∧ win0_8.index t (1 : Fin 2) = 0 :=
  (by decide +kernel : ∀ t : Fin grid0.N, _)
theorem idx_rows9 : ∀ t : Fin cfg0.N, win0_9.index t (0 : Fin 2) = t.val ∧ win0_9.index t (1 : Fin 2) = 0 :=
  (by decide +kernel : ∀ t : Fin grid0.N, _)
theorem idx_const5 : ∀ t : Fin cfg0.N, win0_5.index t (0 : Fin 3) = 0 ∧ win0_5.index t (1 : Fin 3) = 0 ∧ win0_5.index t (2 : Fin 3) = 0 :=
  (by decide +kernel : ∀ t : Fin grid0.N, _)
theorem idx_const6 : ∀ t : Fin cfg0.N, win0_6.index t (0 : Fin 3) = 0 ∧ win0_6.index t (1 : Fin 3) = 0 ∧ win0_6.index t (2 : Fin 3) = 0 :=
  (by decide +kernel : ∀ t : Fin grid0.N, _)
theorem idx_const7 : ∀ t : Fin cfg0.N, win0_7.index t (0 : Fin 3) = 0 ∧ win0_7.index t (1 : Fin 3) = 0 ∧ win0_7.index t (2 : Fin 3) = 0 :=
  (by decide +kernel : ∀ t : Fin grid0.N, _)

/-- Row `p` of point `t`'s block is row 256·t + p of the array. -/
def rowOf (t : Fin cfg0.N) (p : Fin 256) : Fin 8192 :=
  ⟨t.val * 256 + p.val, by
    have ht : t.val < 32 := Nat.lt_of_lt_of_eq t.isLt (show cfg0.N = 32 from N_0)
    have := p.isLt; omega⟩

/-! ## The loaded blocks as rows of the argument arrays -/

theorem blk0 (c : Dev nD) (t : Fin cfg0.N) (p : Fin 256) (k : Fin 1024) :
    Frm.blockAt m c 0 t (ix2 p k) = m ((c : Thread nD τ).loc main_arg0) (ix2 (rowOf t p) k) := by
  show Frm.entry m c main_arg0 (((cfg0.win 0).blk t).view.emb (ix2 p k)) = _
  rw [Frm.entry_arg0]
  refine congrArg (m ((c : Thread nD τ).loc main_arg0)) (funext fun a => Fin.ext ?_)
  obtain ⟨h0, h1⟩ := idx_rows0 t
  match a with
  | ⟨0, _⟩ => show win0_0.index t (0 : Fin 2) * 256 + 1 * p.val = t.val * 256 + p.val; rw [h0]; omega
  | ⟨1, _⟩ => show win0_0.index t (1 : Fin 2) * 1024 + 1 * k.val = k.val; rw [h1]; omega
theorem blk1 (c : Dev nD) (t : Fin cfg0.N) (p : Fin 256) (k : Fin 1024) :
    Frm.blockAt m c 1 t (ix2 p k) = m ((c : Thread nD τ).loc main_arg1) (ix2 (rowOf t p) k) := by
  show Frm.entry m c main_arg1 (((cfg0.win 1).blk t).view.emb (ix2 p k)) = _
  rw [Frm.entry_arg1]
  refine congrArg (m ((c : Thread nD τ).loc main_arg1)) (funext fun a => Fin.ext ?_)
  obtain ⟨h0, h1⟩ := idx_rows1 t
  match a with
  | ⟨0, _⟩ => show win0_1.index t (0 : Fin 2) * 256 + 1 * p.val = t.val * 256 + p.val; rw [h0]; omega
  | ⟨1, _⟩ => show win0_1.index t (1 : Fin 2) * 1024 + 1 * k.val = k.val; rw [h1]; omega
theorem blk2 (c : Dev nD) (t : Fin cfg0.N) (p : Fin 256) (k : Fin 1024) :
    Frm.blockAt m c 2 t (ix2 p k) = m ((c : Thread nD τ).loc main_arg2) (ix2 (rowOf t p) k) := by
  show Frm.entry m c main_arg2 (((cfg0.win 2).blk t).view.emb (ix2 p k)) = _
  rw [Frm.entry_arg2]
  refine congrArg (m ((c : Thread nD τ).loc main_arg2)) (funext fun a => Fin.ext ?_)
  obtain ⟨h0, h1⟩ := idx_rows2 t
  match a with
  | ⟨0, _⟩ => show win0_2.index t (0 : Fin 2) * 256 + 1 * p.val = t.val * 256 + p.val; rw [h0]; omega
  | ⟨1, _⟩ => show win0_2.index t (1 : Fin 2) * 1024 + 1 * k.val = k.val; rw [h1]; omega
theorem blk3 (c : Dev nD) (t : Fin cfg0.N) (p : Fin 256) (k : Fin 4096) :
    Frm.blockAt m c 3 t (ix2 p k) = m ((c : Thread nD τ).loc main_arg3) (ix2 (rowOf t p) k) := by
  show Frm.entry m c main_arg3 (((cfg0.win 3).blk t).view.emb (ix2 p k)) = _
  rw [Frm.entry_arg3]
  refine congrArg (m ((c : Thread nD τ).loc main_arg3)) (funext fun a => Fin.ext ?_)
  obtain ⟨h0, h1⟩ := idx_rows3 t
  match a with
  | ⟨0, _⟩ => show win0_3.index t (0 : Fin 2) * 256 + 1 * p.val = t.val * 256 + p.val; rw [h0]; omega
  | ⟨1, _⟩ => show win0_3.index t (1 : Fin 2) * 4096 + 1 * k.val = k.val; rw [h1]; omega
theorem blk4 (c : Dev nD) (t : Fin cfg0.N) (p : Fin 256) (k : Fin 4096) :
    Frm.blockAt m c 4 t (ix2 p k) = m ((c : Thread nD τ).loc main_arg4) (ix2 (rowOf t p) k) := by
  show Frm.entry m c main_arg4 (((cfg0.win 4).blk t).view.emb (ix2 p k)) = _
  rw [Frm.entry_arg4]
  refine congrArg (m ((c : Thread nD τ).loc main_arg4)) (funext fun a => Fin.ext ?_)
  obtain ⟨h0, h1⟩ := idx_rows4 t
  match a with
  | ⟨0, _⟩ => show win0_4.index t (0 : Fin 2) * 256 + 1 * p.val = t.val * 256 + p.val; rw [h0]; omega
  | ⟨1, _⟩ => show win0_4.index t (1 : Fin 2) * 4096 + 1 * k.val = k.val; rw [h1]; omega

theorem blk5 (c : Dev nD) (t : Fin cfg0.N) (g : Fin 4) (q k : Fin 1024) :
    Frm.blockAt m c 5 t (ix3 g q k) = Frm.entry m c main_v5 (ix3 g q k) := by
  show Frm.entry m c main_v5 (((cfg0.win 5).blk t).view.emb (ix3 g q k)) = _
  refine congrArg (Frm.entry m c main_v5) (funext fun a => Fin.ext ?_)
  obtain ⟨h0, h1, h2⟩ := idx_const5 t
  match a with
  | ⟨0, _⟩ => show win0_5.index t (0 : Fin 3) * 4 + 1 * g.val = g.val; rw [h0]; omega
  | ⟨1, _⟩ => show win0_5.index t (1 : Fin 3) * 1024 + 1 * q.val = q.val; rw [h1]; omega
  | ⟨2, _⟩ => show win0_5.index t (2 : Fin 3) * 1024 + 1 * k.val = k.val; rw [h2]; omega
theorem blk6 (c : Dev nD) (t : Fin cfg0.N) (g : Fin 4) (q k : Fin 1024) :
    Frm.blockAt m c 6 t (ix3 g q k) = Frm.entry m c main_v11 (ix3 g q k) := by
  show Frm.entry m c main_v11 (((cfg0.win 6).blk t).view.emb (ix3 g q k)) = _
  refine congrArg (Frm.entry m c main_v11) (funext fun a => Fin.ext ?_)
  obtain ⟨h0, h1, h2⟩ := idx_const6 t
  match a with
  | ⟨0, _⟩ => show win0_6.index t (0 : Fin 3) * 4 + 1 * g.val = g.val; rw [h0]; omega
  | ⟨1, _⟩ => show win0_6.index t (1 : Fin 3) * 1024 + 1 * q.val = q.val; rw [h1]; omega
  | ⟨2, _⟩ => show win0_6.index t (2 : Fin 3) * 1024 + 1 * k.val = k.val; rw [h2]; omega
theorem blk7 (c : Dev nD) (t : Fin cfg0.N) (g : Fin 4) (u : Fin 1) (q : Fin 1024) :
    Frm.blockAt m c 7 t (ix3 g u q) = Frm.entry m c main_v17 (ix3 g u q) := by
  show Frm.entry m c main_v17 (((cfg0.win 7).blk t).view.emb (ix3 g u q)) = _
  refine congrArg (Frm.entry m c main_v17) (funext fun a => Fin.ext ?_)
  obtain ⟨h0, h1, h2⟩ := idx_const7 t
  match a with
  | ⟨0, _⟩ => show win0_7.index t (0 : Fin 3) * 4 + 1 * g.val = g.val; rw [h0]; omega
  | ⟨1, _⟩ => show win0_7.index t (1 : Fin 3) * 1 + 1 * u.val = u.val; rw [h1]; omega
  | ⟨2, _⟩ => show win0_7.index t (2 : Fin 3) * 1024 + 1 * q.val = q.val; rw [h2]; omega

theorem wx_at0 (c : Dev nD) (t : Fin cfg0.N) (q k : Fin 1024) : Frm.blockAt m c 5 t (ix3 (0 : Fin 4) q k) = (m ((c : Thread nD τ).loc main_arg6)) (ix2 q k) := by
  rw [blk5, entry_wx]; exact wstack_at0 _ _ _ _ q k
theorem wh_at0 (c : Dev nD) (t : Fin cfg0.N) (q k : Fin 1024) : Frm.blockAt m c 6 t (ix3 (0 : Fin 4) q k) = (m ((c : Thread nD τ).loc main_arg10)) (ix2 q k) := by
  rw [blk6, entry_wh]; exact wstack_at0 _ _ _ _ q k
theorem b_at0 (c : Dev nD) (t : Fin cfg0.N) (q : Fin 1024) : Frm.blockAt m c 7 t (ix3 (0 : Fin 4) (0 : Fin 1) q) = (m ((c : Thread nD τ).loc main_arg14)) (ix1 q) := by
  rw [blk7, entry_b]; exact bstack_at0 _ _ _ _ q
theorem wx_at1 (c : Dev nD) (t : Fin cfg0.N) (q k : Fin 1024) : Frm.blockAt m c 5 t (ix3 (1 : Fin 4) q k) = (m ((c : Thread nD τ).loc main_arg5)) (ix2 q k) := by
  rw [blk5, entry_wx]; exact wstack_at1 _ _ _ _ q k
theorem wh_at1 (c : Dev nD) (t : Fin cfg0.N) (q k : Fin 1024) : Frm.blockAt m c 6 t (ix3 (1 : Fin 4) q k) = (m ((c : Thread nD τ).loc main_arg9)) (ix2 q k) := by
  rw [blk6, entry_wh]; exact wstack_at1 _ _ _ _ q k
theorem b_at1 (c : Dev nD) (t : Fin cfg0.N) (q : Fin 1024) : Frm.blockAt m c 7 t (ix3 (1 : Fin 4) (0 : Fin 1) q) = (m ((c : Thread nD τ).loc main_arg13)) (ix1 q) := by
  rw [blk7, entry_b]; exact bstack_at1 _ _ _ _ q
theorem wx_at2 (c : Dev nD) (t : Fin cfg0.N) (q k : Fin 1024) : Frm.blockAt m c 5 t (ix3 (2 : Fin 4) q k) = (m ((c : Thread nD τ).loc main_arg8)) (ix2 q k) := by
  rw [blk5, entry_wx]; exact wstack_at2 _ _ _ _ q k
theorem wh_at2 (c : Dev nD) (t : Fin cfg0.N) (q k : Fin 1024) : Frm.blockAt m c 6 t (ix3 (2 : Fin 4) q k) = (m ((c : Thread nD τ).loc main_arg12)) (ix2 q k) := by
  rw [blk6, entry_wh]; exact wstack_at2 _ _ _ _ q k
theorem b_at2 (c : Dev nD) (t : Fin cfg0.N) (q : Fin 1024) : Frm.blockAt m c 7 t (ix3 (2 : Fin 4) (0 : Fin 1) q) = (m ((c : Thread nD τ).loc main_arg16)) (ix1 q) := by
  rw [blk7, entry_b]; exact bstack_at2 _ _ _ _ q
theorem wx_at3 (c : Dev nD) (t : Fin cfg0.N) (q k : Fin 1024) : Frm.blockAt m c 5 t (ix3 (3 : Fin 4) q k) = (m ((c : Thread nD τ).loc main_arg7)) (ix2 q k) := by
  rw [blk5, entry_wx]; exact wstack_at3 _ _ _ _ q k
theorem wh_at3 (c : Dev nD) (t : Fin cfg0.N) (q k : Fin 1024) : Frm.blockAt m c 6 t (ix3 (3 : Fin 4) q k) = (m ((c : Thread nD τ).loc main_arg11)) (ix2 q k) := by
  rw [blk6, entry_wh]; exact wstack_at3 _ _ _ _ q k
theorem b_at3 (c : Dev nD) (t : Fin cfg0.N) (q : Fin 1024) : Frm.blockAt m c 7 t (ix3 (3 : Fin 4) (0 : Fin 1) q) = (m ((c : Thread nD τ).loc main_arg15)) (ix1 q) := by
  rw [blk7, entry_b]; exact bstack_at3 _ _ _ _ q

/-! ## What each point writes back -/

/-- The two result arrays of the specification, of the launch memory's argument arrays on core `c`. -/
abbrev hidOf (c : Dev nD) : FVec Ideal ⟨2, ![8192, 1024]⟩ .f32 := LstmSpec.hidArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
abbrev cellOf (c : Dev nD) : FVec Ideal ⟨2, ![8192, 1024]⟩ .f32 := LstmSpec.cellArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))

theorem hz2 : (![0, 0] : Fin 2 → Nat) = fun _ => 0 := funext fun a => by fin_cases a <;> rfl
theorem hz3 : (![0, 0, 0] : Fin 3 → Nat) = fun _ => 0 := funext fun a => by fin_cases a <;> rfl

theorem emb8 (t : Fin cfg0.N) (y : S256x1024.Idx) : ((cfg0.win 8).blk t).view.emb y = ix2 (rowOf t (y 0)) (y 1) := by
  funext a; apply Fin.ext
  obtain ⟨h0, h1⟩ := idx_rows8 t
  match a with
  | ⟨0, _⟩ => show win0_8.index t (0 : Fin 2) * 256 + 1 * (y 0).val = t.val * 256 + (y 0).val; rw [h0]; omega
  | ⟨1, _⟩ => show win0_8.index t (1 : Fin 2) * 1024 + 1 * (y 1).val = (y 1).val; rw [h1]; omega
theorem emb9 (t : Fin cfg0.N) (y : S256x1024.Idx) : ((cfg0.win 9).blk t).view.emb y = ix2 (rowOf t (y 0)) (y 1) := by
  funext a; apply Fin.ext
  obtain ⟨h0, h1⟩ := idx_rows9 t
  match a with
  | ⟨0, _⟩ => show win0_9.index t (0 : Fin 2) * 256 + 1 * (y 0).val = t.val * 256 + (y 0).val; rw [h0]; omega
  | ⟨1, _⟩ => show win0_9.index t (1 : Fin 2) * 1024 + 1 * (y 1).val = (y 1).val; rw [h1]; omega

/-- At any row of point `t`'s block, the block-level terms are the specification's at the array's row. -/
theorem rows_spec (c : Dev nD) (t : Fin cfg0.N) (p : Fin 256) (q : Fin 1024) :
    LstmBody.cellBlk (Frm.blockAt m c 0 t) (Frm.blockAt m c 1 t) (Frm.blockAt m c 2 t) (Frm.blockAt m c 3 t) (Frm.blockAt m c 4 t) (Frm.blockAt m c 5 t) (Frm.blockAt m c 6 t) (Frm.blockAt m c 7 t) p q = LstmSpec.cellNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (rowOf t p) q
      ∧ LstmBody.hidBlk (Frm.blockAt m c 0 t) (Frm.blockAt m c 1 t) (Frm.blockAt m c 2 t) (Frm.blockAt m c 3 t) (Frm.blockAt m c 4 t) (Frm.blockAt m c 5 t) (Frm.blockAt m c 6 t) (Frm.blockAt m c 7 t) p q = LstmSpec.hidNew (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (rowOf t p) q :=
  LstmBody.blocks_are_rows (rowOf t) (Frm.blockAt m c 0 t) (Frm.blockAt m c 1 t) (Frm.blockAt m c 2 t) (Frm.blockAt m c 3 t) (Frm.blockAt m c 4 t) (Frm.blockAt m c 5 t) (Frm.blockAt m c 6 t) (Frm.blockAt m c 7 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))
    (blk0 m c t) (blk1 m c t) (blk2 m c t) (blk3 m c t) (blk4 m c t)
    (wx_at0 m c t) (wx_at1 m c t) (wx_at2 m c t) (wx_at3 m c t)
    (wh_at0 m c t) (wh_at1 m c t) (wh_at2 m c t) (wh_at3 m c t)
    (b_at0 m c t) (b_at1 m c t) (b_at2 m c t) (b_at3 m c t) p q

theorem flushed8 (c : Dev nD) (t : Fin cfg0.N) :
    (Frm.pdata m 0 c).flushed 8 t = ((cfg0.win 8).blk t).view.read (Elt Ideal) (hidOf m c) := by
  show (cfg0.win 8).cut (grid0.coords t) ((Frm.pdata m 0 c).after 8 t) = _
  rw [Frm.after_8]
  unfold Frm.hxOut
  rw [View.canon_unit_zero hz2]
  simp only [View.ld_unit_zero (S := S256x1024) hz2, View.ld_unit_zero (S := S256x4096) hz2, View.ld_unit_zero (S := S4x1024x1024) hz3, View.ld_unit_zero (S := S4x1x1024) hz3]
  funext y
  show k0_pay3 (F := Ideal) (Frm.blockAt m c 2 t) (k0_pay5 (Frm.blockAt m c 0 t) (Frm.blockAt m c 3 t)) (k0_pay6 (Frm.blockAt m c 0 t) (Frm.blockAt m c 1 t) (Frm.blockAt m c 4 t)) (k0_pay7 (Frm.blockAt m c 5 t)) (k0_pay8 (Frm.blockAt m c 6 t)) (Frm.blockAt m c 7 t) y
    = hidOf m c (((cfg0.win 8).blk t).view.emb y)
  refine (LstmBody.hid_blk (Frm.blockAt m c 0 t) (Frm.blockAt m c 1 t) (Frm.blockAt m c 2 t) (Frm.blockAt m c 3 t) (Frm.blockAt m c 4 t) (Frm.blockAt m c 5 t) (Frm.blockAt m c 6 t) (Frm.blockAt m c 7 t) y).trans ?_
  rw [emb8 t y]
  exact (rows_spec m c t (y 0) (y 1)).2

theorem flushed9 (c : Dev nD) (t : Fin cfg0.N) :
    (Frm.pdata m 0 c).flushed 9 t = ((cfg0.win 9).blk t).view.read (Elt Ideal) (cellOf m c) := by
  show (cfg0.win 9).cut (grid0.coords t) ((Frm.pdata m 0 c).after 9 t) = _
  rw [Frm.after_9]
  unfold Frm.cxOut
  rw [View.canon_unit_zero hz2]
  simp only [View.ld_unit_zero (S := S256x1024) hz2, View.ld_unit_zero (S := S256x4096) hz2, View.ld_unit_zero (S := S4x1024x1024) hz3, View.ld_unit_zero (S := S4x1x1024) hz3]
  funext y
  show k0_pay2 (F := Ideal) (Frm.blockAt m c 2 t) (k0_pay5 (Frm.blockAt m c 0 t) (Frm.blockAt m c 3 t)) (k0_pay6 (Frm.blockAt m c 0 t) (Frm.blockAt m c 1 t) (Frm.blockAt m c 4 t)) (k0_pay7 (Frm.blockAt m c 5 t)) (k0_pay8 (Frm.blockAt m c 6 t)) (Frm.blockAt m c 7 t) y
    = cellOf m c (((cfg0.win 9).blk t).view.emb y)
  refine (LstmBody.cell_blk (Frm.blockAt m c 0 t) (Frm.blockAt m c 1 t) (Frm.blockAt m c 2 t) (Frm.blockAt m c 3 t) (Frm.blockAt m c 4 t) (Frm.blockAt m c 5 t) (Frm.blockAt m c 6 t) (Frm.blockAt m c 7 t) y).trans ?_
  rw [emb9 t y]
  exact (rows_spec m c t (y 0) (y 1)).1

/-! ## The blocks tile the rows -/

theorem mem_blk8 (t : Fin cfg0.N) (i : S8192x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v18_0).slice (win0_8.rect t)).set ↔ _
  rw [View.set_slice_whole, Rect.mem_set_unit]
  exact Iff.rfl

theorem cover8 (i : S8192x1024.Idx) : ∃ t : Fin cfg0.N, (cfg0.win 8).flush t = true ∧ i ∈ ((cfg0.win 8).blk t).view.set := by
  have hi0 : (i 0).val < 8192 := (i 0).isLt
  have hi1 : (i 1).val < 1024 := (i 1).isLt
  have hlt : (i 0).val / 256 < cfg0.N := Nat.lt_of_lt_of_eq (by omega : (i 0).val / 256 < 32) (show 32 = cfg0.N from N_0.symm)
  obtain ⟨h0, h1⟩ := idx_rows8 ⟨(i 0).val / 256, hlt⟩
  have h0' : win0_8.index ⟨(i 0).val / 256, hlt⟩ (0 : Fin 2) = (i 0).val / 256 := h0
  refine ⟨⟨(i 0).val / 256, hlt⟩, flush0_8 _, ?_⟩
  rw [mem_blk8]
  intro a
  match a with
  | ⟨0, _⟩ => show win0_8.index ⟨(i 0).val / 256, hlt⟩ (0 : Fin 2) * 256 ≤ (i 0).val ∧ (i 0).val < win0_8.index ⟨(i 0).val / 256, hlt⟩ (0 : Fin 2) * 256 + 256; rw [h0']; omega
  | ⟨1, _⟩ => show win0_8.index ⟨(i 0).val / 256, hlt⟩ (1 : Fin 2) * 1024 ≤ (i 1).val ∧ (i 1).val < win0_8.index ⟨(i 0).val / 256, hlt⟩ (1 : Fin 2) * 1024 + 1024; rw [h1]; omega

theorem mem_blk9 (t : Fin cfg0.N) (i : S8192x1024.Idx) :
    i ∈ ((cfg0.win 9).blk t).view.set ↔ ∀ a : Fin 2, win0_9.index t a * S256x1024.size a ≤ (i a).val ∧ (i a).val < win0_9.index t a * S256x1024.size a + S256x1024.size a := by
  show i ∈ ((View.whole main_v18_1).slice (win0_9.rect t)).set ↔ _
  rw [View.set_slice_whole, Rect.mem_set_unit]
  exact Iff.rfl

theorem cover9 (i : S8192x1024.Idx) : ∃ t : Fin cfg0.N, (cfg0.win 9).flush t = true ∧ i ∈ ((cfg0.win 9).blk t).view.set := by
  have hi0 : (i 0).val < 8192 := (i 0).isLt
  have hi1 : (i 1).val < 1024 := (i 1).isLt
  have hlt : (i 0).val / 256 < cfg0.N := Nat.lt_of_lt_of_eq (by omega : (i 0).val / 256 < 32) (show 32 = cfg0.N from N_0.symm)
  obtain ⟨h0, h1⟩ := idx_rows9 ⟨(i 0).val / 256, hlt⟩
  have h0' : win0_9.index ⟨(i 0).val / 256, hlt⟩ (0 : Fin 2) = (i 0).val / 256 := h0
  refine ⟨⟨(i 0).val / 256, hlt⟩, flush0_9 _, ?_⟩
  rw [mem_blk9]
  intro a
  match a with
  | ⟨0, _⟩ => show win0_9.index ⟨(i 0).val / 256, hlt⟩ (0 : Fin 2) * 256 ≤ (i 0).val ∧ (i 0).val < win0_9.index ⟨(i 0).val / 256, hlt⟩ (0 : Fin 2) * 256 + 256; rw [h0']; omega
  | ⟨1, _⟩ => show win0_9.index ⟨(i 0).val / 256, hlt⟩ (1 : Fin 2) * 1024 ≤ (i 1).val ∧ (i 1).val < win0_9.index ⟨(i 0).val / 256, hlt⟩ (1 : Fin 2) * 1024 + 1024; rw [h1]; omega

/-- After the run each result array is the specification's. -/
theorem final_hid (c : Dev nD) : (Frm.pdata m 0 c).arrAt 8 cfg0.N = hidOf m c :=
  (Frm.pdata m 0 c).arrAt_eq_of_cover 8 (hidOf m c) (fun t _ => flushed8 m c t) cover8
theorem final_cell (c : Dev nD) : (Frm.pdata m 0 c).arrAt 9 cfg0.N = cellOf m c :=
  (Frm.pdata m 0 c).arrAt_eq_of_cover 9 (cellOf m c) (fun t _ => flushed9 m c t) cover9

/-! ## The run, read -/

/-- Every weakly fair execution of the idealized kernel terminates with the two results at the specification's arrays
    of the launch memory's arguments, and the arguments unchanged. -/
theorem run : θ_run defs (onTc (τ := τ) (main (F := Ideal))) ⟨m, fun _ => 0, ρ⟩ (fun r => ∀ c : Dev nD,
      r.2.mem ((c.tc : Thread nD τ).loc main_v18_0) = hidOf m c
      ∧ r.2.mem ((c.tc : Thread nD τ).loc main_v18_1) = cellOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨((h c).1 8).trans (final_hid m c), ((h c).1 9).trans (final_cell m c),
      ((h c).1 0).trans (((Frm.pdata m 0 c).arrAt_in 0 rfl _).trans ((Frm.pdata_A m c 0).trans (Frm.entry_arg0 m c))),
      ((h c).1 1).trans (((Frm.pdata m 0 c).arrAt_in 1 rfl _).trans ((Frm.pdata_A m c 1).trans (Frm.entry_arg1 m c))),
      ((h c).1 2).trans (((Frm.pdata m 0 c).arrAt_in 2 rfl _).trans ((Frm.pdata_A m c 2).trans (Frm.entry_arg2 m c))),
      ((h c).1 3).trans (((Frm.pdata m 0 c).arrAt_in 3 rfl _).trans ((Frm.pdata_A m c 3).trans (Frm.entry_arg3 m c))),
      ((h c).1 4).trans (((Frm.pdata m 0 c).arrAt_in 4 rfl _).trans ((Frm.pdata_A m c 4).trans (Frm.entry_arg4 m c))),
      ((h c).2 main_arg5 (Pipeline.mem_restRefs_of main_arg5 (by decide) (by decide))).trans (Frm.entry_arg5 m c),
      ((h c).2 main_arg6 (Pipeline.mem_restRefs_of main_arg6 (by decide) (by decide))).trans (Frm.entry_arg6 m c),
      ((h c).2 main_arg7 (Pipeline.mem_restRefs_of main_arg7 (by decide) (by decide))).trans (Frm.entry_arg7 m c),
      ((h c).2 main_arg8 (Pipeline.mem_restRefs_of main_arg8 (by decide) (by decide))).trans (Frm.entry_arg8 m c),
      ((h c).2 main_arg9 (Pipeline.mem_restRefs_of main_arg9 (by decide) (by decide))).trans (Frm.entry_arg9 m c),
      ((h c).2 main_arg10 (Pipeline.mem_restRefs_of main_arg10 (by decide) (by decide))).trans (Frm.entry_arg10 m c),
      ((h c).2 main_arg11 (Pipeline.mem_restRefs_of main_arg11 (by decide) (by decide))).trans (Frm.entry_arg11 m c),
      ((h c).2 main_arg12 (Pipeline.mem_restRefs_of main_arg12 (by decide) (by decide))).trans (Frm.entry_arg12 m c),
      ((h c).2 main_arg13 (Pipeline.mem_restRefs_of main_arg13 (by decide) (by decide))).trans (Frm.entry_arg13 m c),
      ((h c).2 main_arg14 (Pipeline.mem_restRefs_of main_arg14 (by decide) (by decide))).trans (Frm.entry_arg14 m c),
      ((h c).2 main_arg15 (Pipeline.mem_restRefs_of main_arg15 (by decide) (by decide))).trans (Frm.entry_arg15 m c),
      ((h c).2 main_arg16 (Pipeline.mem_restRefs_of main_arg16 (by decide) (by decide))).trans (Frm.entry_arg16 m c)⟩)
    (Frm.run_to_post m ρ)

end Cert.LstmKernel

end
-- ==== Proof.lean ====
/-
  The LSTM cell with per-gate dropout masks: a pipelined kernel over 32 blocks of 256 batch rows against a plain
  array program. On the extended reals both compute, for batch row b and hidden unit o,

      gate(off, u) = Σ_k x[b,k]·mask_x[b,off+k]·Wx[o,k] + bx[o] + Σ_k u[b,k]·mask_h[b,off+k]·Wh[o,k]
      c' = σ(gate_f)·c + σ(gate_i)·tanh(gate_g),      h' = σ(gate_o)·tanh(c')

  (the candidate's second path reads x). The kernel reaches it by stacking the four gates' masked operands and weights
  along a leading axis and taking one batched product per path; the casts to the narrower float format are the identity
  here, the matrix unit's product into a zero accumulator is the plain sum, and the kernel's logistic is by definition
  the quotient the reference spells out. The two sides are the same term, so the precondition is never opened.

  The three frames: each kernel program runs its eighteen host operations and then the region, whose body at every
  point loads whole blocks and stores whole blocks (module KernelFrame / KernelIdealFrame, one text at any float
  instance); the reference's frame is its run with the results dropped. The ideal pass rewrote nothing, so the
  idealization claim is trivial.
-/
import proofs.«147330_j35476429865299_2_alg».proof.Defs
import proofs.«147330_j35476429865299_2_alg».proof.Proof.Gen.Kernel
import proofs.«147330_j35476429865299_2_alg».proof.Proof.Gen.KernelIdeal
import proofs.«147330_j35476429865299_2_alg».proof.Proof.Gen.ReferenceIdeal
import proofs.«147330_j35476429865299_2_alg».proof.Proof.Gen.Pre_finite_inputs
import proofs.«147330_j35476429865299_2_alg».proof.Proof.Gen.ReferenceIdeal.Run
import proofs.«147330_j35476429865299_2_alg».proof.Proof.Gen.ReferenceIdeal.Read
import proofs.«147330_j35476429865299_2_alg».proof.Proof.KernelFrame
import proofs.«147330_j35476429865299_2_alg».proof.Proof.KernelIdealFrame
import proofs.«147330_j35476429865299_2_alg».proof.Proof.LstmRef
import proofs.«147330_j35476429865299_2_alg».proof.Proof.LstmArray
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ

theorem frame_ki : Cert.frame_KernelIdeal := fun m ρ _ => Cert.KernelIdeal.Frm.frame m ρ

/-- The reference's run, its two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories agreeing on the arguments the kernel's two result arrays end at the specification's new hidden and
    new cell state of its arguments, and the reference's at the same of its own: one function of equal arguments. -/
theorem algebraic : Cert.algebraic_KernelIdeal_ReferenceIdeal := by
  intro m ρ m' ρ' _ hagree
  refine ⟨fun c => Cert.LstmKernel.hidOf m c, fun c => Cert.LstmKernel.cellOf m c, Cert.LstmKernel.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10, a11, a12, a13, a14, a15, a16⟩ := hagree c
    have e := Cert.LstmRef.hid_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
    rw [(h c).1, Cert.ReferenceIdeal.Read.val_main_v63_eq, e, a0, a1, a2, a3, a4, a5, a6, a7, a8, a9, a10, a11, a12, a13, a14, a15, a16]
  · obtain ⟨a0, a1, a2, a3, a4, a5, a6, a7, a8, a9, a10, a11, a12, a13, a14, a15, a16⟩ := hagree c
    have e := Cert.LstmRef.cell_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16))
    rw [(h c).2.1, Cert.ReferenceIdeal.Read.val_main_v61_eq, e, a0, a1, a2, a3, a4, a5, a6, a7, a8, a9, a10, a11, a12, a13, a14, a15, a16]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
